-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S500000x4 : Shape := ⟨2, ![500000, 4]⟩
abbrev S388x128 : Shape := ⟨2, ![388, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x4 : S_.BroadcastsInDim S500000x4 (![] : Fin 0 → Fin S500000x4.rank)
  reducesTo_S500000x4_S_d0_1 : S500000x4.ReducesTo [0, 1] S_
  bcast_S_S388x128 : S_.BroadcastsInDim S388x128 (![] : Fin 0 → Fin S388x128.rank)
  reducesTo_S388x128_S_d0_1 : S388x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg10 : FVec F S128 .f32) (main_arg11 : FVec F S128x128 .f32) (main_arg12 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg7 : FVec F S128x128 .f32) (main_arg8 : FVec F S128 .f32) (main_arg9 : FVec F S256x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg9
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x128 .f32) (main_arg1 : IVec S500000 32) (main_arg2 : IVec S500000 32) (main_arg3 : IVec S500000 32) (main_arg4 : FVec F S500000x4 .f32) (main_arg5 : FVec F S388x128 .f32) (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x4 .f32 := Host.absf main_arg4
  let main_cst_0 : FVec F S_ .f32 := constant S_ .f32 0x7F800000#32
  let main_v5 : FVec F S500000x4 .f32 := broadcastInDim S500000x4 ![] bcast_S_S500000x4 main_cst_0
  let main_v6 : IVec S500000x4 1 := cmpf .olt main_v4 main_v5
  let main_c_1 : IVec S_ 1 := constantI S_ 1 1#1
  let main_v7 : IVec S_ 1 := (fun x v => Host.reduce IntOp.andi x v reducesTo_S500000x4_S_d0_1 h_S_) main_v6 main_c_1
  let main_v8 : IVec S_ 1 := andi main_v3 main_v7
  let main_v9 : FVec F S388x128 .f32 := Host.absf main_arg5
  let main_cst_2 : FVec F S_ .f32 := constant S_ .f32 0x7F800000#32
  let main_v10 : FVec F S388x128 .f32 := broadcastInDim S388x128 ![] bcast_S_S388x128 main_cst_2
  let main_v11 : IVec S388x128 1 := cmpf .olt main_v9 main_v10
  let main_c_3 : IVec S_ 1 := constantI S_ 1 1#1
  let main_v12 : IVec S_ 1 := (fun x v => Host.reduce IntOp.andi x v reducesTo_S388x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S100000x128 : Shape := ⟨2, ![100000, 128]⟩
abbrev S500000 : Shape := ⟨1, ![500000]⟩
abbrev S500000x4 : Shape := ⟨2, ![500000, 4]⟩
abbrev S388x128 : Shape := ⟨2, ![388, 128]⟩
abbrev S128 : Shape := ⟨1, ![128]⟩
abbrev S128x128 : Shape := ⟨2, ![128, 128]⟩
abbrev S256x128 : Shape := ⟨2, ![256, 128]⟩
abbrev S4x128 : Shape := ⟨2, ![4, 128]⟩
abbrev S_ : Shape := ⟨0, ![]⟩
abbrev S500000x1 : Shape := ⟨2, ![500000, 1]⟩
abbrev S500000x128 : Shape := ⟨2, ![500000, 128]⟩
abbrev S4000x128 : Shape := ⟨2, ![4000, 128]⟩
abbrev S4000x4 : Shape := ⟨2, ![4000, 4]⟩
abbrev S1x128 : Shape := ⟨2, ![1, 128]⟩
abbrev S5000x128 : Shape := ⟨2, ![5000, 128]⟩

abbrev nBuf : Space → Nat
  | .hbm => 60
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000x4, .f32⟩
  | .hbm, ⟨5, _⟩ => ⟨S388x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .bf16⟩
  | .hbm, ⟨15, _⟩ => ⟨S128x128, .f32⟩
  | .hbm, ⟨16, _⟩ => ⟨S128x128, .bf16⟩
  | .hbm, ⟨17, _⟩ => ⟨S128x128, .f32⟩
  | .hbm, ⟨18, _⟩ => ⟨S128x128, .bf16⟩
  | .hbm, ⟨19, _⟩ => ⟨S4x128, .f32⟩
  | .hbm, ⟨20, _⟩ => ⟨S4x128, .bf16⟩
  | .hbm, ⟨21, _⟩ => ⟨S128x128, .bf16⟩
  | .hbm, ⟨22, _⟩ => ⟨S128x128, .f32⟩
  | .hbm, ⟨23, _⟩ => ⟨S128x128, .f32⟩
  | .hbm, ⟨24, _⟩ => ⟨S100000x128, .bf16⟩
  | .hbm, ⟨25, _⟩ => ⟨S500000x4, .bf16⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .bf16⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x128, .bf16⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x128, .bf16⟩
  | .hbm, ⟨53, _⟩ => ⟨S500000x128, .bf16⟩
  | .hbm, ⟨54, _⟩ => ⟨S500000x128, .f32⟩
  | .hbm, ⟨55, _⟩ => ⟨S_, .f32⟩
  | .hbm, ⟨56, _⟩ => ⟨S100000x128, .f32⟩
  | .hbm, ⟨57, _⟩ => ⟨S500000x1, .i32⟩
  | .hbm, ⟨58, _⟩ => ⟨S100000x128, .f32⟩
  | .hbm, ⟨59, _⟩ => ⟨S100000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S4000x4, .bf16⟩
  | .local _ .vmem, ⟨7, _⟩ => ⟨S4000x4, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S4x128, .bf16⟩
  | .local _ .vmem, ⟨12, _⟩ => ⟨S128, .f32⟩
  | .local _ .vmem, ⟨13, _⟩ => ⟨S128x128, .bf16⟩
  | .local _ .vmem, ⟨14, _⟩ => ⟨S128, .f32⟩
  | .local _ .vmem, ⟨15, _⟩ => ⟨S4000x128, .bf16⟩
  | .local _ .vmem, ⟨16, _⟩ => ⟨S4000x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x4 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S388x128_S128x128_0_0 : S388x128.Slices ![0, 0] S128x128
  bitsLt_bf16_f32 : FTy.bits .bf16 < FTy.bits .f32
  slices_S388x128_S128x128_128_0 : S388x128.Slices ![128, 0] S128x128
  slices_S388x128_S128x128_256_0 : S388x128.Slices ![256, 0] S128x128
  slices_S388x128_S4x128_384_0 : S388x128.Slices ![384, 0] S4x128
  slices_S256x128_S128x128_0_0 : S256x128.Slices ![0, 0] S128x128
  slices_S256x128_S128x128_128_0 : S256x128.Slices ![128, 0] S128x128
  bcast_S_S500000 : S_.BroadcastsInDim S500000 (![] : Fin 0 → Fin S500000.rank)
  bcast_S500000_S500000x1_0 : S500000.BroadcastsInDim S500000x1 (![0] : Fin 1 → Fin S500000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S100000x128_S500000x1_S500000x128_1_0_n_n_0_1_1128_wf : GatherDims.WF S100000x128 S500000x1 S500000x128 [1] [0] [] [0] [] 1 ![1, 128]
  dot_S4000x128_S128x128_S4000x128_1_0_0_1_n_n_wf : DotDims.WF S4000x128 S128x128 S4000x128 [1] [0] [0] [1] [] []
  dot_S4000x4_S4x128_S4000x128_1_0_0_1_n_n_wf : DotDims.WF S4000x4 S4x128 S4000x128 [1] [0] [0] [1] [] []
  scatter_S100000x128_S500000x1_S500000x128_1_0_0_1_wf : ScatterDims.WF S100000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .bf16 = 32 ∨ (Rect.block (s := S500000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .bf16 = 32 ∨ (Rect.block (s := S500000x128) S4000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x4.size a ≤ S500000x4.size a
  hwx0_3 : ∀ i : grid0.Coords, EltTy.bits .bf16 = 32 ∨ (Rect.block (s := S500000x4) S4000x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128.size a ≤ S4x128.size a
  hwx0_7 : ∀ i : grid0.Coords, EltTy.bits .bf16 = 32 ∨ (Rect.block (s := S4x128) S4x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S500000x128.size a
  hwx0_11 : ∀ i : grid0.Coords, EltTy.bits .bf16 = 32 ∨ (Rect.block (s := S500000x128) S4000x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x4_S4x128_S4000x128_1_0_0_1_n_n : DotDims S4000x4 S4x128 S4000x128 where
  lhsContracting := [1]
  rhsContracting := [0]
  lhsNonContracting := [0]
  rhsNonContracting := [1]
  lhsBatch := []
  rhsBatch := []
  wf := dot_S4000x4_S4x128_S4000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v19) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S4x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S500000 : Shape := ⟨1, ![500000]⟩
abbrev S500000x4 : Shape := ⟨2, ![500000, 4]⟩
abbrev S388x128 : Shape := ⟨2, ![388, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S500000x1 : Shape := ⟨2, ![500000, 1]⟩
abbrev S500000x128 : Shape := ⟨2, ![500000, 128]⟩
abbrev S500000x388 : Shape := ⟨2, ![500000, 388]⟩
abbrev S1x128 : Shape := ⟨2, ![1, 128]⟩
abbrev S100000x256 : Shape := ⟨2, ![100000, 256]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000x4, .f32⟩
  | .hbm, ⟨5, _⟩ => ⟨S388x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x128, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x128, .f32⟩
  | .hbm, ⟨40, _⟩ => ⟨S500000x388, .f32⟩
  | .hbm, ⟨41, _⟩ => ⟨S500000x128, .f32⟩
  | .hbm, ⟨42, _⟩ => ⟨S1x128, .f32⟩
  | .hbm, ⟨43, _⟩ => ⟨S500000x128, .f32⟩
  | .hbm, ⟨44, _⟩ => ⟨S500000x128, .f32⟩
  | .hbm, ⟨45, _⟩ => ⟨S500000x128, .f32⟩
  | .hbm, ⟨46, _⟩ => ⟨S500000x128, .f32⟩
  | .hbm, ⟨47, _⟩ => ⟨S_, .f32⟩
  | .hbm, ⟨48, _⟩ => ⟨S500000x128, .f32⟩
  | .hbm, ⟨49, _⟩ => ⟨S500000x128, .f32⟩
  | .hbm, ⟨50, _⟩ => ⟨S_, .f32⟩
  | .hbm, ⟨51, _⟩ => ⟨S500000x128, .f32⟩
  | .hbm, ⟨52, _⟩ => ⟨S500000x128, .f32⟩
  | .hbm, ⟨53, _⟩ => ⟨S500000x128, .f32⟩
  | .hbm, ⟨54, _⟩ => ⟨S500000x128, .f32⟩
  | .hbm, ⟨55, _⟩ => ⟨S1x128, .f32⟩
  | .hbm, ⟨56, _⟩ => ⟨S500000x128, .f32⟩
  | .hbm, ⟨57, _⟩ => ⟨S500000x128, .f32⟩
  | .hbm, ⟨58, _⟩ => ⟨S_, .f32⟩
  | .hbm, ⟨59, _⟩ => ⟨S100000x128, .f32⟩
  | .hbm, ⟨60, _⟩ => ⟨S500000x1, .i32⟩
  | .hbm, ⟨61, _⟩ => ⟨S100000x128, .f32⟩
  | .hbm, ⟨62, _⟩ => ⟨S100000x256, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x4_S500000x388_d1 : Shape.Concatenates [S500000x128, S500000x128, S500000x128, S500000x4] S500000x388 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S500000x388_S388x128_S500000x128_1_0_0_1_n_n_wf : DotDims.WF S500000x388 S388x128 S500000x128 [1] [0] [0] [1] [] []
  dot_S500000x128_S128x128_S500000x128_1_0_0_1_n_n_wf : DotDims.WF S500000x128 S128x128 S500000x128 [1] [0] [0] [1] [] []
  scatter_S100000x128_S500000x1_S500000x128_1_0_0_1_wf : ScatterDims.WF S100000x128 S500000x1 S500000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x388_S388x128_S500000x128_1_0_0_1_n_n : DotDims S500000x388 S388x128 S500000x128 where
  lhsContracting := [1]
  rhsContracting := [0]
  lhsNonContracting := [0]
  rhsNonContracting := [1]
  lhsBatch := []
  rhsBatch := []
  wf := dot_S500000x388_S388x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is four segments: a stretch of host operations, the message pallas_call, a second stretch of host operations
  and the update pallas_call. Every weakly fair execution ends with each unscoped buffer holding what the fold of the
  four segments leaves there; read at the result buffer this names the program's result as the last region's output
  array, and read at the thirteen argument buffers it says they are unchanged.
-/
import proofs.«181374_j12051678233185_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the update call's output window's array, so after the last segment it holds that
    window's array as the pipeline leaves it. -/
theorem result_eq (c : Dev nD) :
    W4 m ρ c (Proc.devRef .tc main_v39) = (dat1 (V3 m ρ) c).arrAt 7 cfg1.N :=
  W4_arr m ρ c 7

set_option backward.isDefEq.respectTransparency.types false in
/-- Every weakly fair execution of @main terminates without a fault; the result buffer ends at the last boundary's
    contents and the arguments end as launched. -/
theorem run : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.Named

end
-- ==== Proof.Spec.lean ====
/-
  One layer of the pairwise message-passing update, as functions of rows over the extended reals.

  * `silu z = z · logistic z`.
  * `head pre w b q`: lane `q` of the second dense layer, Σ_j silu (pre j) · w j q + b q.
  * `pre4`: the first layer's pre-activation of the message network when its input row is four pieces laid end to
    end (three gathered pair rows of 128 lanes and a geometry row of 4) and its 388-row weight is cut into the four
    bands that meet those pieces: the four partial inner products added left to right, then the bias.
  * `pre2`: the same for the update network: two pieces of 128 lanes against the two bands of a 256-row weight.
  * `sum_split4`, `sum_split2`: a sum over 388 (or 256) consecutive indices is the sum of the sums over the pieces
    128 + 128 + 128 + 4 (or 128 + 128). Only regrouping of a finite sum: no finiteness of the terms is needed.
  * `msgArr`, `updArr`: the two layers as whole arrays of any number of rows — row `r` of the result depends on
    row `r` of each row-indexed input only — and `msgArr_congr_rows`, `updArr_congr_rows` saying exactly that.
-/
import Idealize.ShloMosaic.PureOps.Ideal
import Idealize.ShloMosaic.Lib.ValueIdx

noncomputable section

namespace Cert.Mlp

open Idealize.ShloMosaic Idealize.ShloMosaic.ValueIdx

def silu (z : EReal) : EReal := z * Ideal.logistic z

def head (pre : Fin 128 → EReal) (w : Fin 128 → Fin 128 → EReal) (b : Fin 128 → EReal) (q : Fin 128) : EReal :=
  (∑ j : Fin 128, silu (pre j) * w j q) + b q

def pre4 (a b c : Fin 128 → EReal) (g : Fin 4 → EReal) (wa wb wc : Fin 128 → Fin 128 → EReal)
    (wg : Fin 4 → Fin 128 → EReal) (b1 : Fin 128 → EReal) (j : Fin 128) : EReal :=
  ((((∑ k : Fin 128, a k * wa k j) + ∑ k : Fin 128, b k * wb k j) + ∑ k : Fin 128, c k * wc k j)
    + ∑ k : Fin 4, g k * wg k j) + b1 j

def pre2 (h s : Fin 128 → EReal) (wh ws : Fin 128 → Fin 128 → EReal) (b1 : Fin 128 → EReal) (j : Fin 128) : EReal :=
  ((∑ k : Fin 128, h k * wh k j) + ∑ k : Fin 128, s k * ws k j) + b1 j

/-- A sum over 256 consecutive indices, as the two halves. -/
theorem sum_split2 (f : Fin 256 → EReal) :
    ∑ k : Fin 256, f k
      = (∑ k : Fin 128, f ⟨k.val, by have := k.isLt; omega⟩) + ∑ k : Fin 128, f ⟨128 + k.val, by have := k.isLt; omega⟩ :=
  Fin.sum_univ_add (a := 128) (b := 128) f

/-- A sum over 388 consecutive indices, as the pieces 128 + 128 + 128 + 4. -/
theorem sum_split4 (f : Fin 388 → EReal) :
    ∑ k : Fin 388, f k
      = (((∑ k : Fin 128, f ⟨k.val, by have := k.isLt; omega⟩) + ∑ k : Fin 128, f ⟨128 + k.val, by have := k.isLt; omega⟩)
          + ∑ k : Fin 128, f ⟨256 + k.val, by have := k.isLt; omega⟩)
        + ∑ k : Fin 4, f ⟨384 + k.val, by have := k.isLt; omega⟩ := by
  have h1 : ∑ k : Fin 388, f k
      = (∑ k : Fin 384, f ⟨k.val, by have := k.isLt; omega⟩) + ∑ k : Fin 4, f ⟨384 + k.val, by have := k.isLt; omega⟩ :=
    Fin.sum_univ_add (a := 384) (b := 4) f
  have h2 : (∑ k : Fin 384, f ⟨k.val, by have := k.isLt; omega⟩)
      = (∑ k : Fin 256, f ⟨k.val, by have := k.isLt; omega⟩) + ∑ k : Fin 128, f ⟨256 + k.val, by have := k.isLt; omega⟩ :=
    Fin.sum_univ_add (a := 256) (b := 128) (fun k : Fin 384 => f ⟨k.val, by have := k.isLt; omega⟩)
  have h3 : (∑ k : Fin 256, f ⟨k.val, by have := k.isLt; omega⟩)
      = (∑ k : Fin 128, f ⟨k.val, by have := k.isLt; omega⟩) + ∑ k : Fin 128, f ⟨128 + k.val, by have := k.isLt; omega⟩ :=
    Fin.sum_univ_add (a := 128) (b := 128) (fun k : Fin 256 => f ⟨k.val, by have := k.isLt; omega⟩)
  rw [h1, h2, h3]

/-! ## The layers over whole arrays -/

variable {n : ℕ}

/-- The message layer over `n` triplets: three gathered row arrays, the geometry rows, the four weight bands, the
    first bias, the second weight and bias. -/
def msgArr (A B C : (⟨2, ![n, 128]⟩ : Shape).Idx → EReal) (G : (⟨2, ![n, 4]⟩ : Shape).Idx → EReal)
    (Wa Wb Wc : (⟨2, ![128, 128]⟩ : Shape).Idx → EReal) (Wg : (⟨2, ![4, 128]⟩ : Shape).Idx → EReal)
    (B1 : (⟨1, ![128]⟩ : Shape).Idx → EReal) (W2 : (⟨2, ![128, 128]⟩ : Shape).Idx → EReal)
    (B2 : (⟨1, ![128]⟩ : Shape).Idx → EReal) : (⟨2, ![n, 128]⟩ : Shape).Idx → EReal :=
  fun i => head (pre4 (fun k => A (ix2 (i 0) k)) (fun k => B (ix2 (i 0) k)) (fun k => C (ix2 (i 0) k))
      (fun k => G (ix2 (i 0) k)) (fun k j => Wa (ix2 k j)) (fun k j => Wb (ix2 k j)) (fun k j => Wc (ix2 k j))
      (fun k j => Wg (ix2 k j)) (fun j => B1 (ix1 j)))
    (fun k j => W2 (ix2 k j)) (fun j => B2 (ix1 j)) (i 1)

/-- The update layer over `n` pairs: the pair rows, the aggregated rows, the two weight bands, the first bias, the
    second weight and bias; the pair rows are added back. -/
def updArr (H S : (⟨2, ![n, 128]⟩ : Shape).Idx → EReal)
    (Wh Ws : (⟨2, ![128, 128]⟩ : Shape).Idx → EReal)
    (B1 : (⟨1, ![128]⟩ : Shape).Idx → EReal) (W2 : (⟨2, ![128, 128]⟩ : Shape).Idx → EReal)
    (B2 : (⟨1, ![128]⟩ : Shape).Idx → EReal) : (⟨2, ![n, 128]⟩ : Shape).Idx → EReal :=
  fun i => H i + head (pre2 (fun k => H (ix2 (i 0) k)) (fun k => S (ix2 (i 0) k))
      (fun k j => Wh (ix2 k j)) (fun k j => Ws (ix2 k j)) (fun j => B1 (ix1 j)))
    (fun k j => W2 (ix2 k j)) (fun j => B2 (ix1 j)) (i 1)

/-- Two message layers agree at two entries of the same lane when the rows they read agree and the weights and
    biases agree entry by entry. -/
theorem msgArr_congr {n' : ℕ}
    (A B C : (⟨2, ![n, 128]⟩ : Shape).Idx → EReal) (G : (⟨2, ![n, 4]⟩ : Shape).Idx → EReal)
    (Wa Wb Wc : (⟨2, ![128, 128]⟩ : Shape).Idx → EReal) (Wg : (⟨2, ![4, 128]⟩ : Shape).Idx → EReal)
    (B1 : (⟨1, ![128]⟩ : Shape).Idx → EReal) (W2 : (⟨2, ![128, 128]⟩ : Shape).Idx → EReal)
    (B2 : (⟨1, ![128]⟩ : Shape).Idx → EReal)
    (A' B' C' : (⟨2, ![n', 128]⟩ : Shape).Idx → EReal) (G' : (⟨2, ![n', 4]⟩ : Shape).Idx → EReal)
    (Wa' Wb' Wc' : (⟨2, ![128, 128]⟩ : Shape).Idx → EReal) (Wg' : (⟨2, ![4, 128]⟩ : Shape).Idx → EReal)
    (B1' : (⟨1, ![128]⟩ : Shape).Idx → EReal) (W2' : (⟨2, ![128, 128]⟩ : Shape).Idx → EReal)
    (B2' : (⟨1, ![128]⟩ : Shape).Idx → EReal)
    (p : Fin n) (r : Fin n') (q : Fin 128)
    (hA : ∀ k : Fin 128, A (ix2 p k) = A' (ix2 r k)) (hB : ∀ k : Fin 128, B (ix2 p k) = B' (ix2 r k))
    (hC : ∀ k : Fin 128, C (ix2 p k) = C' (ix2 r k)) (hG : ∀ k : Fin 4, G (ix2 p k) = G' (ix2 r k))
    (hWa : ∀ (k j : Fin 128), Wa (ix2 k j) = Wa' (ix2 k j)) (hWb : ∀ (k j : Fin 128), Wb (ix2 k j) = Wb' (ix2 k j))
    (hWc : ∀ (k j : Fin 128), Wc (ix2 k j) = Wc' (ix2 k j)) (hWg : ∀ (k : Fin 4) (j : Fin 128), Wg (ix2 k j) = Wg' (ix2 k j))
    (hB1 : ∀ j : Fin 128, B1 (ix1 j) = B1' (ix1 j)) (hW2 : ∀ (k j : Fin 128), W2 (ix2 k j) = W2' (ix2 k j))
    (hB2 : ∀ j : Fin 128, B2 (ix1 j) = B2' (ix1 j)) :
    msgArr A B C G Wa Wb Wc Wg B1 W2 B2 (ix2 p q) = msgArr A' B' C' G' Wa' Wb' Wc' Wg' B1' W2' B2' (ix2 r q) := by
  show head (pre4 (fun k => A (ix2 p k)) (fun k => B (ix2 p k)) (fun k => C (ix2 p k)) (fun k => G (ix2 p k))
        (fun k j => Wa (ix2 k j)) (fun k j => Wb (ix2 k j)) (fun k j => Wc (ix2 k j)) (fun k j => Wg (ix2 k j))
        (fun j => B1 (ix1 j))) (fun k j => W2 (ix2 k j)) (fun j => B2 (ix1 j)) q
     = head (pre4 (fun k => A' (ix2 r k)) (fun k => B' (ix2 r k)) (fun k => C' (ix2 r k)) (fun k => G' (ix2 r k))
        (fun k j => Wa' (ix2 k j)) (fun k j => Wb' (ix2 k j)) (fun k j => Wc' (ix2 k j)) (fun k j => Wg' (ix2 k j))
        (fun j => B1' (ix1 j))) (fun k j => W2' (ix2 k j)) (fun j => B2' (ix1 j)) q
  rw [funext hA, funext hB, funext hC, funext hG, funext fun k => funext (hWa k), funext fun k => funext (hWb k),
    funext fun k => funext (hWc k), funext fun k => funext (hWg k), funext hB1, funext fun k => funext (hW2 k), funext hB2]

/-- Two update layers agree at two entries of the same lane when the rows they read agree and the weights and
    biases agree entry by entry. -/
theorem updArr_congr {n' : ℕ}
    (H S : (⟨2, ![n, 128]⟩ : Shape).Idx → EReal) (Wh Ws : (⟨2, ![128, 128]⟩ : Shape).Idx → EReal)
    (B1 : (⟨1, ![128]⟩ : Shape).Idx → EReal) (W2 : (⟨2, ![128, 128]⟩ : Shape).Idx → EReal)
    (B2 : (⟨1, ![128]⟩ : Shape).Idx → EReal)
    (H' S' : (⟨2, ![n', 128]⟩ : Shape).Idx → EReal) (Wh' Ws' : (⟨2, ![128, 128]⟩ : Shape).Idx → EReal)
    (B1' : (⟨1, ![128]⟩ : Shape).Idx → EReal) (W2' : (⟨2, ![128, 128]⟩ : Shape).Idx → EReal)
    (B2' : (⟨1, ![128]⟩ : Shape).Idx → EReal)
    (p : Fin n) (r : Fin n') (q : Fin 128)
    (hH : ∀ k : Fin 128, H (ix2 p k) = H' (ix2 r k)) (hS : ∀ k : Fin 128, S (ix2 p k) = S' (ix2 r k))
    (hWh : ∀ (k j : Fin 128), Wh (ix2 k j) = Wh' (ix2 k j)) (hWs : ∀ (k j : Fin 128), Ws (ix2 k j) = Ws' (ix2 k j))
    (hB1 : ∀ j : Fin 128, B1 (ix1 j) = B1' (ix1 j)) (hW2 : ∀ (k j : Fin 128), W2 (ix2 k j) = W2' (ix2 k j))
    (hB2 : ∀ j : Fin 128, B2 (ix1 j) = B2' (ix1 j)) :
    updArr H S Wh Ws B1 W2 B2 (ix2 p q) = updArr H' S' Wh' Ws' B1' W2' B2' (ix2 r q) := by
  show H (ix2 p q) + head (pre2 (fun k => H (ix2 p k)) (fun k => S (ix2 p k)) (fun k j => Wh (ix2 k j))
        (fun k j => Ws (ix2 k j)) (fun j => B1 (ix1 j))) (fun k j => W2 (ix2 k j)) (fun j => B2 (ix1 j)) q
     = H' (ix2 r q) + head (pre2 (fun k => H' (ix2 r k)) (fun k => S' (ix2 r k)) (fun k j => Wh' (ix2 k j))
        (fun k j => Ws' (ix2 k j)) (fun j => B1' (ix1 j))) (fun k j => W2' (ix2 k j)) (fun j => B2' (ix1 j)) q
  rw [hH q, funext hH, funext hS, funext fun k => funext (hWh k), funext fun k => funext (hWs k), funext hB1,
    funext fun k => funext (hW2 k), funext hB2]

end Cert.Mlp

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.MsgBlock.lean ====
/-
  What the message kernel's body leaves in its output block, entry by entry.

  A grid point holds 4000 triplets. The body multiplies the three gathered row blocks and the geometry block by the
  four bands of the first weight in the matrix unit (each product into a zero accumulator), adds the four products
  left to right and then the first bias row, applies silu lane by lane, multiplies by the second weight and adds the
  second bias row. Roundings to the shorter float format are the identity on the extended reals. So entry (p, q) of the
  block is `Mlp.msgArr` of the point's input blocks at (p, q): it depends on row p of the row-indexed blocks only.
-/
import proofs.«181374_j12051678233185_2_alg».proof.Proof.Gen.KernelIdeal.Frame
import proofs.«181374_j12051678233185_2_alg».proof.Proof.Spec
import proofs.«181374_j12051678233185_2_alg».proof.Proof.LibRowMax
import Idealize.ShloMosaic.Lib.ValueLayout
import Idealize.ShloMosaic.Lib.Pipeline.Value
import Idealize.ShloMosaic.PureOps.Ideal.Laws

set_option maxRecDepth 16384

noncomputable section

namespace Cert.KernelIdeal.MsgBlock

open Cert.KernelIdeal Cert.KernelIdeal.Gen Idealize.ShloMosaic Idealize.ShloMosaic.ValueIdx

theorem zero2 : (![0, 0] : Fin 2 → Nat) = fun _ => 0 := funext fun a => by fin_cases a <;> rfl
theorem zero1 : (![0] : Fin 1 → Nat) = fun _ => 0 := funext fun a => by fin_cases a; rfl

/-- A 4000 × 128 by 128 × 128 product of the matrix unit into a zero accumulator, at an entry. -/
theorem prod128 (l : FVec Ideal S4000x128 .bf16) (r : FVec Ideal S128x128 .bf16) (p : Fin 4000) (q : Fin 128) :
    FloatOps.matmul (F := Ideal) dot_S4000x128_S128x128_S4000x128_1_0_0_1_n_n none l r (constant S4000x128 .f32 0x00000000#32) (ix2 p q)
      = ∑ e : Fin 128, l (ix2 p e) * r (ix2 e q) :=
  Cert.LibRowMax.matmul_plain_apply dot_S4000x128_S128x128_S4000x128_1_0_0_1_n_n_wf none l r p q

/-- A 4000 × 4 by 4 × 128 product of the matrix unit into a zero accumulator, at an entry. -/
theorem prod4 (l : FVec Ideal S4000x4 .bf16) (r : FVec Ideal S4x128 .bf16) (p : Fin 4000) (q : Fin 128) :
    FloatOps.matmul (F := Ideal) dot_S4000x4_S4x128_S4000x128_1_0_0_1_n_n none l r (constant S4000x128 .f32 0x00000000#32) (ix2 p q)
      = ∑ e : Fin 4, l (ix2 p e) * r (ix2 e q) :=
  Cert.LibRowMax.matmul_plain_apply dot_S4000x4_S4x128_S4000x128_1_0_0_1_n_n_wf none l r p q

/-- A 128-lane vector laid as a row and spread down the 4000 rows, added to a matrix, at an entry. -/
theorem bias_row (y : FVec Ideal S4000x128 .f32) (v : FVec Ideal S128 .f32) (p : Fin 4000) (q : Fin 128) :
    addf y (broadcastTo S4000x128 (shapeCast S1x128 v shapeCasts_S128_S1x128) broadcasts_S1x128_S4000x128) (ix2 p q)
      = y (ix2 p q) + v (ix1 q) := by
  show y (ix2 p q) + broadcastTo S4000x128 (shapeCast S1x128 v shapeCasts_S128_S1x128) broadcasts_S1x128_S4000x128 (ix2 p q) = _
  rw [broadcastTo_1b_ab_apply _ broadcasts_S1x128_S4000x128 p q, shapeCast_a_1a_apply v shapeCasts_S128_S1x128 (0 : Fin 1) q]

/-- The first payload (everything up to the second product) at an entry. -/
theorem pay2_apply (v0 v2 v4 : FVec Ideal S4000x128 .bf16) (v6 : FVec Ideal S4000x4 .bf16)
    (v8 v10 v12 : FVec Ideal S128x128 .bf16) (v14 : FVec Ideal S4x128 .bf16) (v23 : FVec Ideal S128 .f32)
    (v30 : FVec Ideal S128x128 .bf16) (p : Fin 4000) (q : Fin 128) :
    k0_pay2 (F := Ideal) v0 v2 v4 v6 v8 v10 v12 v14 v23 v30 (ix2 p q)
      = ∑ j : Fin 128, Cert.Mlp.silu (Cert.Mlp.pre4 (fun k => v0 (ix2 p k)) (fun k => v2 (ix2 p k)) (fun k => v4 (ix2 p k))
          (fun k => v6 (ix2 p k)) (fun k j => v8 (ix2 k j)) (fun k j => v10 (ix2 k j)) (fun k j => v12 (ix2 k j))
          (fun k j => v14 (ix2 k j)) (fun j => v23 (ix1 j)) j) * v30 (ix2 j q) := by
  unfold k0_pay2
  simp only [shapeCast_self]
  refine (prod128 _ _ p q).trans ?_
  refine Finset.sum_congr rfl fun j _ => ?_
  refine congrArg (· * v30 (ix2 j q)) ?_
  -- silu of the pre-activation at (p, j)
  have hpre : addf (F := Ideal) (addf (addf (addf
        (FloatOps.matmul (F := Ideal) dot_S4000x128_S128x128_S4000x128_1_0_0_1_n_n none v0 v8 (constant S4000x128 .f32 0x00000000#32))
        (FloatOps.matmul (F := Ideal) dot_S4000x128_S128x128_S4000x128_1_0_0_1_n_n none v2 v10 (constant S4000x128 .f32 0x00000000#32)))
        (FloatOps.matmul (F := Ideal) dot_S4000x128_S128x128_S4000x128_1_0_0_1_n_n none v4 v12 (constant S4000x128 .f32 0x00000000#32)))
        (FloatOps.matmul (F := Ideal) dot_S4000x4_S4x128_S4000x128_1_0_0_1_n_n none v6 v14 (constant S4000x128 .f32 0x00000000#32)))
        (broadcastTo S4000x128 (shapeCast S1x128 v23 shapeCasts_S128_S1x128) broadcasts_S1x128_S4000x128) (ix2 p j)
      = Cert.Mlp.pre4 (fun k => v0 (ix2 p k)) (fun k => v2 (ix2 p k)) (fun k => v4 (ix2 p k))
          (fun k => v6 (ix2 p k)) (fun k j => v8 (ix2 k j)) (fun k j => v10 (ix2 k j)) (fun k j => v12 (ix2 k j))
          (fun k j => v14 (ix2 k j)) (fun j => v23 (ix1 j)) j := by
    rw [bias_row]
    show ((FloatOps.matmul (F := Ideal) dot_S4000x128_S128x128_S4000x128_1_0_0_1_n_n none v0 v8 (constant S4000x128 .f32 0x00000000#32) (ix2 p j)
          + FloatOps.matmul (F := Ideal) dot_S4000x128_S128x128_S4000x128_1_0_0_1_n_n none v2 v10 (constant S4000x128 .f32 0x00000000#32) (ix2 p j))
          + FloatOps.matmul (F := Ideal) dot_S4000x128_S128x128_S4000x128_1_0_0_1_n_n none v4 v12 (constant S4000x128 .f32 0x00000000#32) (ix2 p j))
          + FloatOps.matmul (F := Ideal) dot_S4000x4_S4x128_S4000x128_1_0_0_1_n_n none v6 v14 (constant S4000x128 .f32 0x00000000#32) (ix2 p j)
        + v23 (ix1 j) = _
    rw [prod128, prod128, prod128, prod4]
    rfl
  show (addf (F := Ideal) (φ := .f32) (addf (addf (addf _ _) _) _) _) (ix2 p j) * Ideal.logistic ((addf (F := Ideal) (φ := .f32) (addf (addf (addf _ _) _) _) _) (ix2 p j)) = _
  rw [hpre]
  rfl

/-- The output block after the body, at an entry. -/
theorem out_apply (x0 x1 x2 : FVec Ideal S4000x128 .bf16) (x3 : FVec Ideal S4000x4 .bf16)
    (x4 x5 x6 : FVec Ideal S128x128 .bf16) (x7 : FVec Ideal S4x128 .bf16) (x8 : FVec Ideal S128 .f32)
    (x9 : FVec Ideal S128x128 .bf16) (x10 : FVec Ideal S128 .f32) (p : Fin 4000) (q : Fin 128) :
    out0_11 (F := Ideal) x0 x1 x2 x3 x4 x5 x6 x7 x8 x9 x10 (ix2 p q)
      = Cert.Mlp.msgArr (n := 4000) x0 x1 x2 x3 x4 x5 x6 x7 x8 x9 x10 (ix2 p q) := by
  unfold out0_11
  rw [View.canon_unit_zero zero2]
  simp only [View.ld_unit_zero (S := S4000x128) zero2, View.ld_unit_zero (S := S4000x4) zero2,
    View.ld_unit_zero (S := S128x128) zero2, View.ld_unit_zero (S := S4x128) zero2, View.ld_unit_zero (S := S128) zero1]
  unfold k0_pay1
  refine (bias_row _ x10 p q).trans ?_
  rw [pay2_apply]
  rfl

end Cert.KernelIdeal.MsgBlock

end
-- ==== Proof.MsgArray.lean ====
/-
  From the message kernel's blocks to its whole output array.

  The grid has 125 points; point `t` stages rows `4000 t … 4000 t + 3999` of the four row-indexed operands and the
  whole of each weight and bias, and writes back rows `4000 t … 4000 t + 3999` of the output. Entry (p, q) of the
  block it writes is the message layer of row p of its row blocks, which is row `4000 t + p` of the arrays: so the
  block is the restriction of ONE array function, and as the 125 blocks tile the 500000 rows the output array IS
  that function of the arrays the region finds.
-/
import proofs.«181374_j12051678233185_2_alg».proof.Proof.MsgBlock

set_option maxRecDepth 16384

noncomputable section

namespace Cert.KernelIdeal.MsgArray

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The index maps, decided over the grid -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 1) = 0 :=
  (by decide +kernel : ∀ t : Fin grid0.N, win0_8.index t (0 : Fin 1) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 1) = 0 :=
  (by decide +kernel : ∀ t : Fin grid0.N, win0_10.index t (0 : Fin 1) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

section
variable (V : (c : Dev nD) → (b : Ref sig .tc) → Buf (Elt Ideal) ((c : Thread nD τ).loc b))

/-! ## Each input window's block at a point, read off the array the region finds -/

/-- Row `p` of point `t`'s block of window 0 is row `t · 4000 + p` of its array. -/
theorem blk0 (c : Dev nD) (t : Fin cfg0.N) (p : Fin 4000) (k : Fin 128) (r : Fin 500000) (hr : r.val = t.val * 4000 + p.val) :
    iblk0 V c 0 t (ix2 p k) = (V c main_v19 : S500000x128.Idx → EReal) (ix2 r k) := by
  have h : (((cfg0.win 0).blk t).view.emb (ix2 p k) : S500000x128.Idx) = ix2 r k := by
    obtain ⟨e0, e1⟩ := idx0 t
    funext a; apply Fin.ext
    match a with
    | ⟨0, _⟩ => show win0_0.index t (0 : Fin 2) * 4000 + 1 * p.val = r.val; omega
    | ⟨1, _⟩ => show win0_0.index t (1 : Fin 2) * 128 + 1 * k.val = k.val; omega
  show (V c main_v19 : S500000x128.Idx → EReal) (((cfg0.win 0).blk t).view.emb (ix2 p k)) = _
  rw [h]

/-- Row `p` of point `t`'s block of window 1 is row `t · 4000 + p` of its array. -/
theorem blk1 (c : Dev nD) (t : Fin cfg0.N) (p : Fin 4000) (k : Fin 128) (r : Fin 500000) (hr : r.val = t.val * 4000 + p.val) :
    iblk0 V c 1 t (ix2 p k) = (V c main_v26 : S500000x128.Idx → EReal) (ix2 r k) := by
  have h : (((cfg0.win 1).blk t).view.emb (ix2 p k) : S500000x128.Idx) = ix2 r k := by
    obtain ⟨e0, e1⟩ := idx1 t
    funext a; apply Fin.ext
    match a with
    | ⟨0, _⟩ => show win0_1.index t (0 : Fin 2) * 4000 + 1 * p.val = r.val; omega
    | ⟨1, _⟩ => show win0_1.index t (1 : Fin 2) * 128 + 1 * k.val = k.val; omega
  show (V c main_v26 : S500000x128.Idx → EReal) (((cfg0.win 1).blk t).view.emb (ix2 p k)) = _
  rw [h]

/-- Row `p` of point `t`'s block of window 2 is row `t · 4000 + p` of its array. -/
theorem blk2 (c : Dev nD) (t : Fin cfg0.N) (p : Fin 4000) (k : Fin 128) (r : Fin 500000) (hr : r.val = t.val * 4000 + p.val) :
    iblk0 V c 2 t (ix2 p k) = (V c main_v33 : S500000x128.Idx → EReal) (ix2 r k) := by
  have h : (((cfg0.win 2).blk t).view.emb (ix2 p k) : S500000x128.Idx) = ix2 r k := by
    obtain ⟨e0, e1⟩ := idx2 t
    funext a; apply Fin.ext
    match a with
    | ⟨0, _⟩ => show win0_2.index t (0 : Fin 2) * 4000 + 1 * p.val = r.val; omega
    | ⟨1, _⟩ => show win0_2.index t (1 : Fin 2) * 128 + 1 * k.val = k.val; omega
  show (V c main_v33 : S500000x128.Idx → EReal) (((cfg0.win 2).blk t).view.emb (ix2 p k)) = _
  rw [h]

/-- Row `p` of point `t`'s block of window 3 is row `t · 4000 + p` of its array. -/
theorem blk3 (c : Dev nD) (t : Fin cfg0.N) (p : Fin 4000) (k : Fin 4) (r : Fin 500000) (hr : r.val = t.val * 4000 + p.val) :
    iblk0 V c 3 t (ix2 p k) = (V c main_v12 : S500000x4.Idx → EReal) (ix2 r k) := by
  have h : (((cfg0.win 3).blk t).view.emb (ix2 p k) : S500000x4.Idx) = ix2 r k := by
    obtain ⟨e0, e1⟩ := idx3 t
    funext a; apply Fin.ext
    match a with
    | ⟨0, _⟩ => show win0_3.index t (0 : Fin 2) * 4000 + 1 * p.val = r.val; omega
    | ⟨1, _⟩ => show win0_3.index t (1 : Fin 2) * 4 + 1 * k.val = k.val; omega
  show (V c main_v12 : S500000x4.Idx → EReal) (((cfg0.win 3).blk t).view.emb (ix2 p k)) = _
  rw [h]

/-- Window 4's one block is its whole array. -/
theorem blk4 (c : Dev nD) (t : Fin cfg0.N) (k : Fin 128) (j : Fin 128) :
    iblk0 V c 4 t (ix2 k j) = (V c main_v1 : S128x128.Idx → EReal) (ix2 k j) := by
  have h : (((cfg0.win 4).blk t).view.emb (ix2 k j) : S128x128.Idx) = ix2 k j := by
    obtain ⟨e0, e1⟩ := idx4 t
    funext a; apply Fin.ext
    match a with
    | ⟨0, _⟩ => show win0_4.index t (0 : Fin 2) * 128 + 1 * k.val = k.val; omega
    | ⟨1, _⟩ => show win0_4.index t (1 : Fin 2) * 128 + 1 * j.val = j.val; omega
  show (V c main_v1 : S128x128.Idx → EReal) (((cfg0.win 4).blk t).view.emb (ix2 k j)) = _
  rw [h]

/-- Window 5's one block is its whole array. -/
theorem blk5 (c : Dev nD) (t : Fin cfg0.N) (k : Fin 128) (j : Fin 128) :
    iblk0 V c 5 t (ix2 k j) = (V c main_v3 : S128x128.Idx → EReal) (ix2 k j) := by
  have h : (((cfg0.win 5).blk t).view.emb (ix2 k j) : S128x128.Idx) = ix2 k j := by
    obtain ⟨e0, e1⟩ := idx5 t
    funext a; apply Fin.ext
    match a with
    | ⟨0, _⟩ => show win0_5.index t (0 : Fin 2) * 128 + 1 * k.val = k.val; omega
    | ⟨1, _⟩ => show win0_5.index t (1 : Fin 2) * 128 + 1 * j.val = j.val; omega
  show (V c main_v3 : S128x128.Idx → EReal) (((cfg0.win 5).blk t).view.emb (ix2 k j)) = _
  rw [h]

/-- Window 6's one block is its whole array. -/
theorem blk6 (c : Dev nD) (t : Fin cfg0.N) (k : Fin 128) (j : Fin 128) :
    iblk0 V c 6 t (ix2 k j) = (V c main_v5 : S128x128.Idx → EReal) (ix2 k j) := by
  have h : (((cfg0.win 6).blk t).view.emb (ix2 k j) : S128x128.Idx) = ix2 k j := by
    obtain ⟨e0, e1⟩ := idx6 t
    funext a; apply Fin.ext
    match a with
    | ⟨0, _⟩ => show win0_6.index t (0 : Fin 2) * 128 + 1 * k.val = k.val; omega
    | ⟨1, _⟩ => show win0_6.index t (1 : Fin 2) * 128 + 1 * j.val = j.val; omega
  show (V c main_v5 : S128x128.Idx → EReal) (((cfg0.win 6).blk t).view.emb (ix2 k j)) = _
  rw [h]

/-- Window 7's one block is its whole array. -/
theorem blk7 (c : Dev nD) (t : Fin cfg0.N) (k : Fin 4) (j : Fin 128) :
    iblk0 V c 7 t (ix2 k j) = (V c main_v7 : S4x128.Idx → EReal) (ix2 k j) := by
  have h : (((cfg0.win 7).blk t).view.emb (ix2 k j) : S4x128.Idx) = ix2 k j := by
    obtain ⟨e0, e1⟩ := idx7 t
    funext a; apply Fin.ext
    match a with
    | ⟨0, _⟩ => show win0_7.index t (0 : Fin 2) * 4 + 1 * k.val = k.val; omega
    | ⟨1, _⟩ => show win0_7.index t (1 : Fin 2) * 128 + 1 * j.val = j.val; omega
  show (V c main_v7 : S4x128.Idx → EReal) (((cfg0.win 7).blk t).view.emb (ix2 k j)) = _
  rw [h]

/-- Window 8's one block is its whole array. -/
theorem blk8 (c : Dev nD) (t : Fin cfg0.N) (j : Fin 128) :
    iblk0 V c 8 t (ix1 j) = (V c main_arg6 : S128.Idx → EReal) (ix1 j) := by
  have h : (((cfg0.win 8).blk t).view.emb (ix1 j) : S128.Idx) = ix1 j := by
    have e0 := idx8 t
    funext a; apply Fin.ext
    match a with
    | ⟨0, _⟩ => show win0_8.index t (0 : Fin 1) * 128 + 1 * j.val = j.val; omega
  show (V c main_arg6 : S128.Idx → EReal) (((cfg0.win 8).blk t).view.emb (ix1 j)) = _
  rw [h]

/-- Window 9's one block is its whole array. -/
theorem blk9 (c : Dev nD) (t : Fin cfg0.N) (k : Fin 128) (j : Fin 128) :
    iblk0 V c 9 t (ix2 k j) = (V c main_v8 : S128x128.Idx → EReal) (ix2 k j) := by
  have h : (((cfg0.win 9).blk t).view.emb (ix2 k j) : S128x128.Idx) = ix2 k j := by
    obtain ⟨e0, e1⟩ := idx9 t
    funext a; apply Fin.ext
    match a with
    | ⟨0, _⟩ => show win0_9.index t (0 : Fin 2) * 128 + 1 * k.val = k.val; omega
    | ⟨1, _⟩ => show win0_9.index t (1 : Fin 2) * 128 + 1 * j.val = j.val; omega
  show (V c main_v8 : S128x128.Idx → EReal) (((cfg0.win 9).blk t).view.emb (ix2 k j)) = _
  rw [h]

/-- Window 10's one block is its whole array. -/
theorem blk10 (c : Dev nD) (t : Fin cfg0.N) (j : Fin 128) :
    iblk0 V c 10 t (ix1 j) = (V c main_arg8 : S128.Idx → EReal) (ix1 j) := by
  have h : (((cfg0.win 10).blk t).view.emb (ix1 j) : S128.Idx) = ix1 j := by
    have e0 := idx10 t
    funext a; apply Fin.ext
    match a with
    | ⟨0, _⟩ => show win0_10.index t (0 : Fin 1) * 128 + 1 * j.val = j.val; omega
  show (V c main_arg8 : S128.Idx → EReal) (((cfg0.win 10).blk t).view.emb (ix1 j)) = _
  rw [h]

/-! ## The output array -/

/-- The message array, as one function of the eleven arrays the message region finds: row `r` is the message layer of row `r` of the three gathered arrays and of the geometry array. -/
def G (c : Dev nD) : S500000x128.Idx → EReal :=
  Cert.Mlp.msgArr (n := 500000) (V c main_v19 : S500000x128.Idx → EReal) (V c main_v26 : S500000x128.Idx → EReal) (V c main_v33 : S500000x128.Idx → EReal) (V c main_v12 : S500000x4.Idx → EReal) (V c main_v1 : S128x128.Idx → EReal) (V c main_v3 : S128x128.Idx → EReal) (V c main_v5 : S128x128.Idx → EReal) (V c main_v7 : S4x128.Idx → EReal) (V c main_arg6 : S128.Idx → EReal) (V c main_v8 : S128x128.Idx → EReal) (V c main_arg8 : S128.Idx → EReal)

/-- What point `t` leaves in the output block, entry by entry, is the array function at the entry's place in the
    array: row `t · 4000 + p`, same lane. -/
theorem flushed_at (c : Dev nD) (t : Fin cfg0.N) (y : S4000x128.Idx) :
    out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y
      = G V c (((cfg0.win 11).blk t).view.emb y) := by
  obtain ⟨p, q, rfl⟩ : ∃ (p : Fin 4000) (q : Fin 128), y = ix2 p q := ⟨y 0, y 1, eq_ix2 y⟩
  have ht : t.val < 125 := lt_of_lt_of_eq t.isLt N_0
  have hp : p.val < 4000 := p.isLt
  have hr : t.val * 4000 + p.val < 500000 := by omega
  have hemb : (((cfg0.win 11).blk t).view.emb (ix2 p q) : S500000x128.Idx) = ix2 (⟨t.val * 4000 + p.val, hr⟩ : Fin 500000) q := by
    obtain ⟨e0, e1⟩ := idx11 t
    funext a; apply Fin.ext
    match a with
    | ⟨0, _⟩ => show win0_11.index t (0 : Fin 2) * 4000 + 1 * p.val = t.val * 4000 + p.val; omega
    | ⟨1, _⟩ => show win0_11.index t (1 : Fin 2) * 128 + 1 * q.val = q.val; omega
  rw [hemb]
  refine (Cert.KernelIdeal.MsgBlock.out_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p q).trans ?_
  exact Cert.Mlp.msgArr_congr (n := 4000) (n' := 500000) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (V c main_v19 : S500000x128.Idx → EReal) (V c main_v26 : S500000x128.Idx → EReal) (V c main_v33 : S500000x128.Idx → EReal) (V c main_v12 : S500000x4.Idx → EReal) (V c main_v1 : S128x128.Idx → EReal) (V c main_v3 : S128x128.Idx → EReal) (V c main_v5 : S128x128.Idx → EReal) (V c main_v7 : S4x128.Idx → EReal) (V c main_arg6 : S128.Idx → EReal) (V c main_v8 : S128x128.Idx → EReal) (V c main_arg8 : S128.Idx → EReal)
    p ⟨t.val * 4000 + p.val, hr⟩ q
    (fun k => blk0 V c t p k ⟨t.val * 4000 + p.val, hr⟩ rfl)
    (fun k => blk1 V c t p k ⟨t.val * 4000 + p.val, hr⟩ rfl)
    (fun k => blk2 V c t p k ⟨t.val * 4000 + p.val, hr⟩ rfl)
    (fun k => blk3 V c t p k ⟨t.val * 4000 + p.val, hr⟩ rfl)
    (fun k j => blk4 V c t k j)
    (fun k j => blk5 V c t k j)
    (fun k j => blk6 V c t k j)
    (fun k j => blk7 V c t k j)
    (fun j => blk8 V c t j)
    (fun k j => blk9 V c t k j)
    (fun j => blk10 V c t j)

theorem flushed_eq (c : Dev nD) (t : Fin cfg0.N) :
    (dat0 V c).flushed 11 t = ((cfg0.win 11).blk t).view.read (Elt Ideal) (G V c) := by
  show (cfg0.win 11).cut (grid0.coords t) ((dat0 V c).after 11 t) = _
  rw [after0_11]
  exact funext fun y => flushed_at V c t y

/-- An index of the output array is in point `t`'s block iff each coordinate is in the block's range on its axis. -/
theorem mem_blk (t : Fin cfg0.N) (i : S500000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v34).slice (win0_11.rect t)).set ↔ _
  rw [View.set_slice_whole, Rect.mem_set_unit]
  exact Iff.rfl

/-- Row `r` of the output array is written by point `r / 4000`: the blocks tile the array. -/
theorem cover (i : S500000x128.Idx) :
    ∃ t : Fin cfg0.N, (cfg0.win 11).flush t = true ∧ i ∈ ((cfg0.win 11).blk t).view.set := by
  have hi0 : (i 0).val < 500000 := (i 0).isLt
  have hi1 : (i 1).val < 128 := (i 1).isLt
  have hN : grid0.N = 125 := N_0
  have hlt : (i 0).val / 4000 < cfg0.N := by show (i 0).val / 4000 < grid0.N; rw [hN]; omega
  obtain ⟨e0, e1⟩ := idx11 (⟨(i 0).val / 4000, hlt⟩ : Fin cfg0.N)
  have e0' : win0_11.index (⟨(i 0).val / 4000, hlt⟩ : Fin cfg0.N) (0 : Fin 2) = (i 0).val / 4000 := e0
  refine ⟨⟨(i 0).val / 4000, hlt⟩, flush0_11 _, ?_⟩
  rw [mem_blk]
  intro a
  match a with
  | ⟨0, _⟩ =>
    show win0_11.index (⟨(i 0).val / 4000, hlt⟩ : Fin cfg0.N) (0 : Fin 2) * 4000 ≤ (i 0).val ∧ (i 0).val < win0_11.index (⟨(i 0).val / 4000, hlt⟩ : Fin cfg0.N) (0 : Fin 2) * 4000 + 4000
    omega
  | ⟨1, _⟩ =>
    show win0_11.index (⟨(i 0).val / 4000, hlt⟩ : Fin cfg0.N) (1 : Fin 2) * 128 ≤ (i 1).val ∧ (i 1).val < win0_11.index (⟨(i 0).val / 4000, hlt⟩ : Fin cfg0.N) (1 : Fin 2) * 128 + 128
    omega

/-- The output array after the region: the layer of the arrays the region finds. -/
theorem final (c : Dev nD) : (dat0 V c).arrAt 11 cfg0.N = G V c :=
  (dat0 V c).arrAt_eq_of_cover 11 (G V c) (fun t _ => flushed_eq V c t) (fun i => cover i)

end

end Cert.KernelIdeal.MsgArray

end
-- ==== Proof.UpdBlock.lean ====
/-
  What the update kernel's body leaves in its output block, entry by entry.

  A grid point holds 5000 pairs. The body multiplies the pair block and the aggregated block by the two bands of the
  first weight in the matrix unit (each product into a zero accumulator), adds the two products and the first bias row,
  applies silu lane by lane, multiplies by the second weight, adds the second bias row, and adds the pair block back.
  Roundings to the shorter float format are the identity on the extended reals. So entry (p, q) of the block is
  `Mlp.updArr` of the point's input blocks at (p, q): it depends on row p of the two row-indexed blocks only.
-/
import proofs.«181374_j12051678233185_2_alg».proof.Proof.Gen.KernelIdeal.Frame
import proofs.«181374_j12051678233185_2_alg».proof.Proof.Spec
import proofs.«181374_j12051678233185_2_alg».proof.Proof.LibRowMax
import Idealize.ShloMosaic.Lib.ValueLayout
import Idealize.ShloMosaic.Lib.Pipeline.Value
import Idealize.ShloMosaic.PureOps.Ideal.Laws

set_option maxRecDepth 16384

noncomputable section

namespace Cert.KernelIdeal.UpdBlock

open Cert.KernelIdeal Cert.KernelIdeal.Gen Idealize.ShloMosaic Idealize.ShloMosaic.ValueIdx

theorem zero2 : (![0, 0] : Fin 2 → Nat) = fun _ => 0 := funext fun a => by fin_cases a <;> rfl
theorem zero1 : (![0] : Fin 1 → Nat) = fun _ => 0 := funext fun a => by fin_cases a; rfl

/-- A 5000 × 128 by 128 × 128 product of the matrix unit into a zero accumulator, at an entry. -/
theorem prod128 (l : FVec Ideal S5000x128 .bf16) (r : FVec Ideal S128x128 .bf16) (p : Fin 5000) (q : Fin 128) :
    FloatOps.matmul (F := Ideal) dot_S5000x128_S128x128_S5000x128_1_0_0_1_n_n none l r (constant S5000x128 .f32 0x00000000#32) (ix2 p q)
      = ∑ e : Fin 128, l (ix2 p e) * r (ix2 e q) :=
  Cert.LibRowMax.matmul_plain_apply dot_S5000x128_S128x128_S5000x128_1_0_0_1_n_n_wf none l r p q

/-- A 128-lane vector laid as a row and spread down the 5000 rows, added to a matrix, at an entry. -/
theorem bias_row (y : FVec Ideal S5000x128 .f32) (v : FVec Ideal S128 .f32) (p : Fin 5000) (q : Fin 128) :
    addf y (broadcastTo S5000x128 (shapeCast S1x128 v shapeCasts_S128_S1x128) broadcasts_S1x128_S5000x128) (ix2 p q)
      = y (ix2 p q) + v (ix1 q) := by
  show y (ix2 p q) + broadcastTo S5000x128 (shapeCast S1x128 v shapeCasts_S128_S1x128) broadcasts_S1x128_S5000x128 (ix2 p q) = _
  rw [broadcastTo_1b_ab_apply _ broadcasts_S1x128_S5000x128 p q, shapeCast_a_1a_apply v shapeCasts_S128_S1x128 (0 : Fin 1) q]

/-- The stored payload at an entry. -/
theorem pay_apply (v0 v2 : FVec Ideal S5000x128 .f32) (v5 v8 : FVec Ideal S128x128 .f32) (v14 : FVec Ideal S128 .f32)
    (v21 : FVec Ideal S128x128 .f32) (v24 : FVec Ideal S128 .f32) (p : Fin 5000) (q : Fin 128) :
    k1_pay1 (F := Ideal) v0 v2 v5 v8 v14 v21 v24 v0 (ix2 p q)
      = Cert.Mlp.updArr (n := 5000) v0 v2 v5 v8 v14 v21 v24 (ix2 p q) := by
  unfold k1_pay1
  simp only [shapeCast_self]
  show v0 (ix2 p q) + (addf (F := Ideal) (φ := .f32) _ _) (ix2 p q) = _
  refine congrArg (v0 (ix2 p q) + ·) ?_
  refine (bias_row _ v24 p q).trans ?_
  refine congrArg (· + v24 (ix1 q)) ?_
  refine (prod128 _ _ p q).trans ?_
  refine Finset.sum_congr rfl fun j _ => ?_
  refine congrArg (· * v21 (ix2 j q)) ?_
  have hpre : addf (F := Ideal) (addf
        (FloatOps.matmul (F := Ideal) dot_S5000x128_S128x128_S5000x128_1_0_0_1_n_n none (truncf .bf16 v0 bitsLt_bf16_f32) (truncf .bf16 v5 bitsLt_bf16_f32) (constant S5000x128 .f32 0x00000000#32))
        (FloatOps.matmul (F := Ideal) dot_S5000x128_S128x128_S5000x128_1_0_0_1_n_n none (truncf .bf16 v2 bitsLt_bf16_f32) (truncf .bf16 v8 bitsLt_bf16_f32) (constant S5000x128 .f32 0x00000000#32)))
        (broadcastTo S5000x128 (shapeCast S1x128 v14 shapeCasts_S128_S1x128) broadcasts_S1x128_S5000x128) (ix2 p j)
      = Cert.Mlp.pre2 (fun k => v0 (ix2 p k)) (fun k => v2 (ix2 p k)) (fun k j => v5 (ix2 k j)) (fun k j => v8 (ix2 k j))
          (fun j => v14 (ix1 j)) j := by
    rw [bias_row]
    show (FloatOps.matmul (F := Ideal) dot_S5000x128_S128x128_S5000x128_1_0_0_1_n_n none (truncf .bf16 v0 bitsLt_bf16_f32) (truncf .bf16 v5 bitsLt_bf16_f32) (constant S5000x128 .f32 0x00000000#32) (ix2 p j)
          + FloatOps.matmul (F := Ideal) dot_S5000x128_S128x128_S5000x128_1_0_0_1_n_n none (truncf .bf16 v2 bitsLt_bf16_f32) (truncf .bf16 v8 bitsLt_bf16_f32) (constant S5000x128 .f32 0x00000000#32) (ix2 p j))
        + v14 (ix1 j) = _
    rw [prod128, prod128]
    rfl
  show (addf (F := Ideal) (φ := .f32) (addf _ _) _) (ix2 p j) * Ideal.logistic ((addf (F := Ideal) (φ := .f32) (addf _ _) _) (ix2 p j)) = _
  rw [hpre]
  rfl

/-- The output block after the body, at an entry. -/
theorem out_apply (x0 x1 : FVec Ideal S5000x128 .f32) (x2 x3 : FVec Ideal S128x128 .f32) (x4 : FVec Ideal S128 .f32)
    (x5 : FVec Ideal S128x128 .f32) (x6 : FVec Ideal S128 .f32) (p : Fin 5000) (q : Fin 128) :
    out1_7 (F := Ideal) x0 x1 x2 x3 x4 x5 x6 (ix2 p q)
      = Cert.Mlp.updArr (n := 5000) x0 x1 x2 x3 x4 x5 x6 (ix2 p q) := by
  unfold out1_7
  rw [View.canon_unit_zero zero2]
  simp only [View.ld_unit_zero (S := S5000x128) zero2, View.ld_unit_zero (S := S128x128) zero2,
    View.ld_unit_zero (S := S128) zero1]
  exact pay_apply x0 x1 x2 x3 x4 x5 x6 p q

end Cert.KernelIdeal.UpdBlock

end
-- ==== Proof.UpdArray.lean ====
/-
  From the update kernel's blocks to its whole output array.

  The grid has 20 points; point `t` stages rows `5000 t … 5000 t + 4999` of the pair array and of the aggregated
  array and the whole of each weight and bias, and writes back rows `5000 t … 5000 t + 4999` of the output. Entry
  (p, q) of the block it writes is the update layer of row p of its two row blocks, which is row `5000 t + p` of the
  arrays: so the block is the restriction of ONE array function, and as the 20 blocks tile the 100000 rows the output
  array IS that function of the arrays the region finds.
-/
import proofs.«181374_j12051678233185_2_alg».proof.Proof.UpdBlock

set_option maxRecDepth 16384

noncomputable section

namespace Cert.KernelIdeal.UpdArray

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The index maps, decided over the grid -/
theorem idx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx4 : ∀ t : Fin cfg1.N, win1_4.index t (0 : Fin 1) = 0 :=
  (by decide +kernel : ∀ t : Fin grid1.N, win1_4.index t (0 : Fin 1) = 0)
theorem idx5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx6 : ∀ t : Fin cfg1.N, win1_6.index t (0 : Fin 1) = 0 :=
  (by decide +kernel : ∀ t : Fin grid1.N, win1_6.index t (0 : Fin 1) = 0)
theorem idx7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)

section
variable (V : (c : Dev nD) → (b : Ref sig .tc) → Buf (Elt Ideal) ((c : Thread nD τ).loc b))

/-! ## Each input window's block at a point, read off the array the region finds -/

/-- Row `p` of point `t`'s block of window 0 is row `t · 5000 + p` of its array. -/
theorem blk0 (c : Dev nD) (t : Fin cfg1.N) (p : Fin 5000) (k : Fin 128) (r : Fin 100000) (hr : r.val = t.val * 5000 + p.val) :
    iblk1 V c 0 t (ix2 p k) = (V c main_arg0 : S100000x128.Idx → EReal) (ix2 r k) := by
  have h : (((cfg1.win 0).blk t).view.emb (ix2 p k) : S100000x128.Idx) = ix2 r k := by
    obtain ⟨e0, e1⟩ := idx0 t
    funext a; apply Fin.ext
    match a with
    | ⟨0, _⟩ => show win1_0.index t (0 : Fin 2) * 5000 + 1 * p.val = r.val; omega
    | ⟨1, _⟩ => show win1_0.index t (1 : Fin 2) * 128 + 1 * k.val = k.val; omega
  show (V c main_arg0 : S100000x128.Idx → EReal) (((cfg1.win 0).blk t).view.emb (ix2 p k)) = _
  rw [h]

/-- Row `p` of point `t`'s block of window 1 is row `t · 5000 + p` of its array. -/
theorem blk1 (c : Dev nD) (t : Fin cfg1.N) (p : Fin 5000) (k : Fin 128) (r : Fin 100000) (hr : r.val = t.val * 5000 + p.val) :
    iblk1 V c 1 t (ix2 p k) = (V c main_v38 : S100000x128.Idx → EReal) (ix2 r k) := by
  have h : (((cfg1.win 1).blk t).view.emb (ix2 p k) : S100000x128.Idx) = ix2 r k := by
    obtain ⟨e0, e1⟩ := idx1 t
    funext a; apply Fin.ext
    match a with
    | ⟨0, _⟩ => show win1_1.index t (0 : Fin 2) * 5000 + 1 * p.val = r.val; omega
    | ⟨1, _⟩ => show win1_1.index t (1 : Fin 2) * 128 + 1 * k.val = k.val; omega
  show (V c main_v38 : S100000x128.Idx → EReal) (((cfg1.win 1).blk t).view.emb (ix2 p k)) = _
  rw [h]

/-- Window 2's one block is its whole array. -/
theorem blk2 (c : Dev nD) (t : Fin cfg1.N) (k : Fin 128) (j : Fin 128) :
    iblk1 V c 2 t (ix2 k j) = (V c main_v9 : S128x128.Idx → EReal) (ix2 k j) := by
  have h : (((cfg1.win 2).blk t).view.emb (ix2 k j) : S128x128.Idx) = ix2 k j := by
    obtain ⟨e0, e1⟩ := idx2 t
    funext a; apply Fin.ext
    match a with
    | ⟨0, _⟩ => show win1_2.index t (0 : Fin 2) * 128 + 1 * k.val = k.val; omega
    | ⟨1, _⟩ => show win1_2.index t (1 : Fin 2) * 128 + 1 * j.val = j.val; omega
  show (V c main_v9 : S128x128.Idx → EReal) (((cfg1.win 2).blk t).view.emb (ix2 k j)) = _
  rw [h]

/-- Window 3's one block is its whole array. -/
theorem blk3 (c : Dev nD) (t : Fin cfg1.N) (k : Fin 128) (j : Fin 128) :
    iblk1 V c 3 t (ix2 k j) = (V c main_v10 : S128x128.Idx → EReal) (ix2 k j) := by
  have h : (((cfg1.win 3).blk t).view.emb (ix2 k j) : S128x128.Idx) = ix2 k j := by
    obtain ⟨e0, e1⟩ := idx3 t
    funext a; apply Fin.ext
    match a with
    | ⟨0, _⟩ => show win1_3.index t (0 : Fin 2) * 128 + 1 * k.val = k.val; omega
    | ⟨1, _⟩ => show win1_3.index t (1 : Fin 2) * 128 + 1 * j.val = j.val; omega
  show (V c main_v10 : S128x128.Idx → EReal) (((cfg1.win 3).blk t).view.emb (ix2 k j)) = _
  rw [h]

/-- Window 4's one block is its whole array. -/
theorem blk4 (c : Dev nD) (t : Fin cfg1.N) (j : Fin 128) :
    iblk1 V c 4 t (ix1 j) = (V c main_arg10 : S128.Idx → EReal) (ix1 j) := by
  have h : (((cfg1.win 4).blk t).view.emb (ix1 j) : S128.Idx) = ix1 j := by
    have e0 := idx4 t
    funext a; apply Fin.ext
    match a with
    | ⟨0, _⟩ => show win1_4.index t (0 : Fin 1) * 128 + 1 * j.val = j.val; omega
  show (V c main_arg10 : S128.Idx → EReal) (((cfg1.win 4).blk t).view.emb (ix1 j)) = _
  rw [h]

/-- Window 5's one block is its whole array. -/
theorem blk5 (c : Dev nD) (t : Fin cfg1.N) (k : Fin 128) (j : Fin 128) :
    iblk1 V c 5 t (ix2 k j) = (V c main_arg11 : S128x128.Idx → EReal) (ix2 k j) := by
  have h : (((cfg1.win 5).blk t).view.emb (ix2 k j) : S128x128.Idx) = ix2 k j := by
    obtain ⟨e0, e1⟩ := idx5 t
    funext a; apply Fin.ext
    match a with
    | ⟨0, _⟩ => show win1_5.index t (0 : Fin 2) * 128 + 1 * k.val = k.val; omega
    | ⟨1, _⟩ => show win1_5.index t (1 : Fin 2) * 128 + 1 * j.val = j.val; omega
  show (V c main_arg11 : S128x128.Idx → EReal) (((cfg1.win 5).blk t).view.emb (ix2 k j)) = _
  rw [h]

/-- Window 6's one block is its whole array. -/
theorem blk6 (c : Dev nD) (t : Fin cfg1.N) (j : Fin 128) :
    iblk1 V c 6 t (ix1 j) = (V c main_arg12 : S128.Idx → EReal) (ix1 j) := by
  have h : (((cfg1.win 6).blk t).view.emb (ix1 j) : S128.Idx) = ix1 j := by
    have e0 := idx6 t
    funext a; apply Fin.ext
    match a with
    | ⟨0, _⟩ => show win1_6.index t (0 : Fin 1) * 128 + 1 * j.val = j.val; omega
  show (V c main_arg12 : S128.Idx → EReal) (((cfg1.win 6).blk t).view.emb (ix1 j)) = _
  rw [h]

/-! ## The output array -/

/-- The updated pair array, as one function of the seven arrays the update region finds: row `r` is the update layer of row `r` of the pair array and of the aggregated array. -/
def G (c : Dev nD) : S100000x128.Idx → EReal :=
  Cert.Mlp.updArr (n := 100000) (V c main_arg0 : S100000x128.Idx → EReal) (V c main_v38 : S100000x128.Idx → EReal) (V c main_v9 : S128x128.Idx → EReal) (V c main_v10 : S128x128.Idx → EReal) (V c main_arg10 : S128.Idx → EReal) (V c main_arg11 : S128x128.Idx → EReal) (V c main_arg12 : S128.Idx → EReal)

/-- What point `t` leaves in the output block, entry by entry, is the array function at the entry's place in the
    array: row `t · 5000 + p`, same lane. -/
theorem flushed_at (c : Dev nD) (t : Fin cfg1.N) (y : S5000x128.Idx) :
    out1_7 (F := Ideal) (iblk1 V c 0 t) (iblk1 V c 1 t) (iblk1 V c 2 t) (iblk1 V c 3 t) (iblk1 V c 4 t) (iblk1 V c 5 t) (iblk1 V c 6 t) y
      = G V c (((cfg1.win 7).blk t).view.emb y) := by
  obtain ⟨p, q, rfl⟩ : ∃ (p : Fin 5000) (q : Fin 128), y = ix2 p q := ⟨y 0, y 1, eq_ix2 y⟩
  have ht : t.val < 20 := lt_of_lt_of_eq t.isLt N_1
  have hp : p.val < 5000 := p.isLt
  have hr : t.val * 5000 + p.val < 100000 := by omega
  have hemb : (((cfg1.win 7).blk t).view.emb (ix2 p q) : S100000x128.Idx) = ix2 (⟨t.val * 5000 + p.val, hr⟩ : Fin 100000) q := by
    obtain ⟨e0, e1⟩ := idx7 t
    funext a; apply Fin.ext
    match a with
    | ⟨0, _⟩ => show win1_7.index t (0 : Fin 2) * 5000 + 1 * p.val = t.val * 5000 + p.val; omega
    | ⟨1, _⟩ => show win1_7.index t (1 : Fin 2) * 128 + 1 * q.val = q.val; omega
  rw [hemb]
  refine (Cert.KernelIdeal.UpdBlock.out_apply (iblk1 V c 0 t) (iblk1 V c 1 t) (iblk1 V c 2 t) (iblk1 V c 3 t) (iblk1 V c 4 t) (iblk1 V c 5 t) (iblk1 V c 6 t) p q).trans ?_
  exact Cert.Mlp.updArr_congr (n := 5000) (n' := 100000) (iblk1 V c 0 t) (iblk1 V c 1 t) (iblk1 V c 2 t) (iblk1 V c 3 t) (iblk1 V c 4 t) (iblk1 V c 5 t) (iblk1 V c 6 t)
    (V c main_arg0 : S100000x128.Idx → EReal) (V c main_v38 : S100000x128.Idx → EReal) (V c main_v9 : S128x128.Idx → EReal) (V c main_v10 : S128x128.Idx → EReal) (V c main_arg10 : S128.Idx → EReal) (V c main_arg11 : S128x128.Idx → EReal) (V c main_arg12 : S128.Idx → EReal)
    p ⟨t.val * 5000 + p.val, hr⟩ q
    (fun k => blk0 V c t p k ⟨t.val * 5000 + p.val, hr⟩ rfl)
    (fun k => blk1 V c t p k ⟨t.val * 5000 + p.val, hr⟩ rfl)
    (fun k j => blk2 V c t k j)
    (fun k j => blk3 V c t k j)
    (fun j => blk4 V c t j)
    (fun k j => blk5 V c t k j)
    (fun j => blk6 V c t j)

theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  exact funext fun y => flushed_at V c t y

/-- An index of the output array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v39).slice (win1_7.rect t)).set ↔ _
  rw [View.set_slice_whole, Rect.mem_set_unit]
  exact Iff.rfl

/-- Row `r` of the output array is written by point `r / 5000`: the blocks tile the array. -/
theorem cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : grid1.N = 20 := N_1
  have hlt : (i 0).val / 5000 < cfg1.N := by show (i 0).val / 5000 < grid1.N; rw [hN]; omega
  obtain ⟨e0, e1⟩ := idx7 (⟨(i 0).val / 5000, hlt⟩ : Fin cfg1.N)
  have e0' : win1_7.index (⟨(i 0).val / 5000, hlt⟩ : Fin cfg1.N) (0 : Fin 2) = (i 0).val / 5000 := e0
  refine ⟨⟨(i 0).val / 5000, hlt⟩, flush1_7 _, ?_⟩
  rw [mem_blk]
  intro a
  match a with
  | ⟨0, _⟩ =>
    show win1_7.index (⟨(i 0).val / 5000, hlt⟩ : Fin cfg1.N) (0 : Fin 2) * 5000 ≤ (i 0).val ∧ (i 0).val < win1_7.index (⟨(i 0).val / 5000, hlt⟩ : Fin cfg1.N) (0 : Fin 2) * 5000 + 5000
    omega
  | ⟨1, _⟩ =>
    show win1_7.index (⟨(i 0).val / 5000, hlt⟩ : Fin cfg1.N) (1 : Fin 2) * 128 ≤ (i 1).val ∧ (i 1).val < win1_7.index (⟨(i 0).val / 5000, hlt⟩ : Fin cfg1.N) (1 : Fin 2) * 128 + 128
    omega

/-- The output array after the region: the layer of the arrays the region finds. -/
theorem final (c : Dev nD) : (dat1 V c).arrAt 7 cfg1.N = G V c :=
  (dat1 V c).arrAt_eq_of_cover 7 (G V c) (fun t _ => flushed_eq V c t) (fun i => cover i)

end

end Cert.KernelIdeal.UpdArray

end
-- ==== Proof.KernelValue.lean ====
/-
  The idealized kernel's result as ONE term of the argument arrays.

  Reading the run backwards: the result buffer is the update region's output array, which is the update layer
  (`Mlp.updArr`) of the arrays that region finds; of those, the aggregated array is the second host stretch's
  scatter-add of the message region's output array (widened: the identity on the extended reals) into zeros at the
  third index vector; the message region's output array is the message layer (`Mlp.msgArr`) of the arrays that
  region finds; and those are the first host stretch's gathers of the (rounded: again the identity) pair array at the
  three index vectors, the rounded geometry array, and the rounded bands of the first weight. Every other array a
  region finds is an argument, or a band of one, as launched.
-/
import proofs.«181374_j12051678233185_2_alg».proof.Proof.KernelRun
import proofs.«181374_j12051678233185_2_alg».proof.Proof.MsgArray
import proofs.«181374_j12051678233185_2_alg».proof.Proof.UpdArray
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

/-! ## The host stretches' terms -/

/-- An index vector as the gather takes it: a negative entry wrapped by the number of pairs, laid as a column. -/
def rowIdx (x : IVec S500000 32) : IVec S500000x1 32 :=
  broadcastInDim S500000x1 ![0] bcast_S500000_S500000x1_0
    (select (cmpi .slt x (broadcastInDim S500000 ![] bcast_S_S500000 (constantI S_ 32 0#32)))
      (addi x (broadcastInDim S500000 ![] bcast_S_S500000 (constantI S_ 32 100000#32))) x)

/-- The rows of the (rounded) pair array the index vector names. -/
def rowsOf (h : FVec Ideal S100000x128 .f32) (x : IVec S500000 32) : FVec Ideal S500000x128 .bf16 :=
  Host.gather gather_S100000x128_S500000x1_S500000x128_1_0_n_n_0_1_1128 (truncf .bf16 h bitsLt_bf16_f32) (rowIdx x)

/-- The message array of the arguments. -/
def msgOf (a0 : FVec Ideal S100000x128 .f32) (a1 a2 a3 : IVec S500000 32) (a4 : FVec Ideal S500000x4 .f32)
    (a5 : FVec Ideal S388x128 .f32) (a6 : FVec Ideal S128 .f32) (a7 : FVec Ideal S128x128 .f32) (a8 : FVec Ideal S128 .f32) :
    S500000x128.Idx → EReal :=
  Cert.Mlp.msgArr (n := 500000) (rowsOf a0 a1) (rowsOf a0 a2) (rowsOf a0 a3) (truncf .bf16 a4 bitsLt_bf16_f32)
    (truncf .bf16 (extractStridedSlice S128x128 ![0, 0] a5 slices_S388x128_S128x128_0_0) bitsLt_bf16_f32)
    (truncf .bf16 (extractStridedSlice S128x128 ![128, 0] a5 slices_S388x128_S128x128_128_0) bitsLt_bf16_f32)
    (truncf .bf16 (extractStridedSlice S128x128 ![256, 0] a5 slices_S388x128_S128x128_256_0) bitsLt_bf16_f32)
    (truncf .bf16 (extractStridedSlice S4x128 ![384, 0] a5 slices_S388x128_S4x128_384_0) bitsLt_bf16_f32)
    a6 (truncf .bf16 a7 bitsLt_bf16_f32) a8

/-- The messages summed into the pairs their third index names. -/
def aggOf (a3 : IVec S500000 32) (M : S500000x128.Idx → EReal) : S100000x128.Idx → EReal :=
  Host.scatterAdd (F := Ideal) scatter_S100000x128_S500000x1_S500000x128_1_0_0_1
    (broadcastInDim S100000x128 ![] bcast_S_S100000x128 (constant (F := Ideal) S_ .f32 0x00000000#32))
    (broadcastInDim S500000x1 ![0] bcast_S500000_S500000x1_0 a3)
    (extf .f32 (M : FVec Ideal S500000x128 .bf16) bitsLt_bf16_f32)

/-- The whole program's result of the arguments. -/
def outOf (a0 : FVec Ideal S100000x128 .f32) (a1 a2 a3 : IVec S500000 32) (a4 : FVec Ideal S500000x4 .f32)
    (a5 : FVec Ideal S388x128 .f32) (a6 : FVec Ideal S128 .f32) (a7 : FVec Ideal S128x128 .f32) (a8 : FVec Ideal S128 .f32)
    (a9 : FVec Ideal S256x128 .f32) (a10 : FVec Ideal S128 .f32) (a11 : FVec Ideal S128x128 .f32) (a12 : FVec Ideal S128 .f32) :
    S100000x128.Idx → EReal :=
  Cert.Mlp.updArr (n := 100000) a0 (aggOf a3 (msgOf a0 a1 a2 a3 a4 a5 a6 a7 a8))
    (extractStridedSlice S128x128 ![0, 0] a9 slices_S256x128_S128x128_0_0)
    (extractStridedSlice S128x128 ![128, 0] a9 slices_S256x128_S128x128_128_0)
    a10 a11 a12

variable (m : (ℓ : Loc nD τ sig) → Buf (Elt Ideal) ℓ) (ρ : Dev nD → PrngReg)

/-! ## What the message region finds (the first host stretch over the launch memory) -/

section Entry0
variable (c : Dev nD)

theorem v19 : (V1 m ρ c main_v19 : S500000x128.Idx → EReal) = rowsOf (m ((c : Thread nD τ).loc main_arg0)) (m ((c : Thread nD τ).loc main_arg1)) := by
  show StableHlo.after hostOps0 (W0 m ρ c) (Proc.devRef .tc main_v19) = _
  after_results_simp <;> rfl
theorem v26 : (V1 m ρ c main_v26 : S500000x128.Idx → EReal) = rowsOf (m ((c : Thread nD τ).loc main_arg0)) (m ((c : Thread nD τ).loc main_arg2)) := by
  show StableHlo.after hostOps0 (W0 m ρ c) (Proc.devRef .tc main_v26) = _
  after_results_simp <;> rfl
theorem v33 : (V1 m ρ c main_v33 : S500000x128.Idx → EReal) = rowsOf (m ((c : Thread nD τ).loc main_arg0)) (m ((c : Thread nD τ).loc main_arg3)) := by
  show StableHlo.after hostOps0 (W0 m ρ c) (Proc.devRef .tc main_v33) = _
  after_results_simp <;> rfl
theorem v12 : (V1 m ρ c main_v12 : S500000x4.Idx → EReal) = truncf (F := Ideal) .bf16 (m ((c : Thread nD τ).loc main_arg4) : FVec Ideal S500000x4 .f32) bitsLt_bf16_f32 := by
  show StableHlo.after hostOps0 (W0 m ρ c) (Proc.devRef .tc main_v12) = _
  after_results_simp <;> rfl
theorem v1 : (V1 m ρ c main_v1 : S128x128.Idx → EReal) = truncf (F := Ideal) .bf16 (extractStridedSlice S128x128 ![0, 0] (m ((c : Thread nD τ).loc main_arg5) : FVec Ideal S388x128 .f32) slices_S388x128_S128x128_0_0) bitsLt_bf16_f32 := by
  show StableHlo.after hostOps0 (W0 m ρ c) (Proc.devRef .tc main_v1) = _
  after_results_simp <;> rfl
theorem v3 : (V1 m ρ c main_v3 : S128x128.Idx → EReal) = truncf (F := Ideal) .bf16 (extractStridedSlice S128x128 ![128, 0] (m ((c : Thread nD τ).loc main_arg5) : FVec Ideal S388x128 .f32) slices_S388x128_S128x128_128_0) bitsLt_bf16_f32 := by
  show StableHlo.after hostOps0 (W0 m ρ c) (Proc.devRef .tc main_v3) = _
  after_results_simp <;> rfl
theorem v5 : (V1 m ρ c main_v5 : S128x128.Idx → EReal) = truncf (F := Ideal) .bf16 (extractStridedSlice S128x128 ![256, 0] (m ((c : Thread nD τ).loc main_arg5) : FVec Ideal S388x128 .f32) slices_S388x128_S128x128_256_0) bitsLt_bf16_f32 := by
  show StableHlo.after hostOps0 (W0 m ρ c) (Proc.devRef .tc main_v5) = _
  after_results_simp <;> rfl
theorem v7 : (V1 m ρ c main_v7 : S4x128.Idx → EReal) = truncf (F := Ideal) .bf16 (extractStridedSlice S4x128 ![384, 0] (m ((c : Thread nD τ).loc main_arg5) : FVec Ideal S388x128 .f32) slices_S388x128_S4x128_384_0) bitsLt_bf16_f32 := by
  show StableHlo.after hostOps0 (W0 m ρ c) (Proc.devRef .tc main_v7) = _
  after_results_simp <;> rfl
theorem v8 : (V1 m ρ c main_v8 : S128x128.Idx → EReal) = truncf (F := Ideal) .bf16 (m ((c : Thread nD τ).loc main_arg7) : FVec Ideal S128x128 .f32) bitsLt_bf16_f32 := by
  show StableHlo.after hostOps0 (W0 m ρ c) (Proc.devRef .tc main_v8) = _
  after_results_simp <;> rfl
theorem e6 : (V1 m ρ c main_arg6 : S128.Idx → EReal) = m ((c : Thread nD τ).loc main_arg6) := by
  show StableHlo.after hostOps0 (W0 m ρ c) (Proc.devRef .tc main_arg6) = _
  after_results_simp <;> rfl
theorem e8 : (V1 m ρ c main_arg8 : S128.Idx → EReal) = m ((c : Thread nD τ).loc main_arg8) := by
  show StableHlo.after hostOps0 (W0 m ρ c) (Proc.devRef .tc main_arg8) = _
  after_results_simp <;> rfl

/-- The message region's output array, of the arguments. -/
theorem msg_value : (dat0 (V1 m ρ) c).arrAt 11 cfg0.N
    = msgOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [Cert.KernelIdeal.MsgArray.final (V1 m ρ) c]
  unfold Cert.KernelIdeal.MsgArray.G msgOf
  rw [v19 m ρ c, v26 m ρ c, v33 m ρ c, v12 m ρ c, v1 m ρ c, v3 m ρ c, v5 m ρ c, v7 m ρ c, e6 m ρ c, v8 m ρ c, e8 m ρ c]

end Entry0

/-! ## What the update region finds (the second host stretch over the message region's exit) -/

section Entry1
variable (c : Dev nD)

/-- A buffer neither host stretch writes and the message region does not stage as an array holds, at the update
    region's entry, what the first stretch left. -/
theorem keep (b : Ref sig .tc) (h1 : StableHlo.after hostOps1 (W2 m ρ c) (Proc.devRef .tc b) = W2 m ρ c (Proc.devRef .tc b))
    (h0 : ∀ w, Pipeline.arrRef spec0 w ≠ b) : V3 m ρ c b = V1 m ρ c b :=
  h1.trans (W2_of_ne m ρ c b h0)

theorem f0 : (V3 m ρ c main_arg0 : S100000x128.Idx → EReal) = m ((c : Thread nD τ).loc main_arg0) := by
  refine (keep m ρ c main_arg0 (by after_results_simp) (by decide)).trans ?_
  show StableHlo.after hostOps0 (W0 m ρ c) (Proc.devRef .tc main_arg0) = _
  after_results_simp <;> rfl
theorem f10 : (V3 m ρ c main_arg10 : S128.Idx → EReal) = m ((c : Thread nD τ).loc main_arg10) := by
  refine (keep m ρ c main_arg10 (by after_results_simp) (by decide)).trans ?_
  show StableHlo.after hostOps0 (W0 m ρ c) (Proc.devRef .tc main_arg10) = _
  after_results_simp <;> rfl
theorem f11 : (V3 m ρ c main_arg11 : S128x128.Idx → EReal) = m ((c : Thread nD τ).loc main_arg11) := by
  refine (keep m ρ c main_arg11 (by after_results_simp) (by decide)).trans ?_
  show StableHlo.after hostOps0 (W0 m ρ c) (Proc.devRef .tc main_arg11) = _
  after_results_simp <;> rfl
theorem f12 : (V3 m ρ c main_arg12 : S128.Idx → EReal) = m ((c : Thread nD τ).loc main_arg12) := by
  refine (keep m ρ c main_arg12 (by after_results_simp) (by decide)).trans ?_
  show StableHlo.after hostOps0 (W0 m ρ c) (Proc.devRef .tc main_arg12) = _
  after_results_simp <;> rfl
theorem f9a : (V3 m ρ c main_v9 : S128x128.Idx → EReal) = extractStridedSlice S128x128 ![0, 0] (m ((c : Thread nD τ).loc main_arg9) : FVec Ideal S256x128 .f32) slices_S256x128_S128x128_0_0 := by
  refine (keep m ρ c main_v9 (by after_results_simp) (by decide)).trans ?_
  show StableHlo.after hostOps0 (W0 m ρ c) (Proc.devRef .tc main_v9) = _
  after_results_simp <;> rfl
theorem f9b : (V3 m ρ c main_v10 : S128x128.Idx → EReal) = extractStridedSlice S128x128 ![128, 0] (m ((c : Thread nD τ).loc main_arg9) : FVec Ideal S256x128 .f32) slices_S256x128_S128x128_128_0 := by
  refine (keep m ρ c main_v10 (by after_results_simp) (by decide)).trans ?_
  show StableHlo.after hostOps0 (W0 m ρ c) (Proc.devRef .tc main_v10) = _
  after_results_simp <;> rfl

/-- The third index vector, as the message region leaves it: as launched. -/
theorem w2_arg3 : (W2 m ρ c (Proc.devRef .tc main_arg3) : S500000.Idx → BitVec 32) = m ((c : Thread nD τ).loc main_arg3) := by
  refine (W2_of_ne m ρ c main_arg3 (by decide)).trans ?_
  show StableHlo.after hostOps0 (W0 m ρ c) (Proc.devRef .tc main_arg3) = _
  after_results_simp <;> rfl

/-- The message region's output array, as that region leaves it. -/
theorem w2_v34 : (W2 m ρ c (Proc.devRef .tc main_v34) : S500000x128.Idx → EReal) = (dat0 (V1 m ρ) c).arrAt 11 cfg0.N :=
  W2_arr m ρ c 11

/-- The aggregated array the update region finds. -/
theorem f38 : (V3 m ρ c main_v38 : S100000x128.Idx → EReal)
    = aggOf (m ((c : Thread nD τ).loc main_arg3)) (msgOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  show StableHlo.after hostOps1 (W2 m ρ c) (Proc.devRef .tc main_v38) = _
  after_results_simp
  rw [w2_arg3 m ρ c, w2_v34 m ρ c, msg_value m ρ c]
  rfl

end Entry1

/-! ## The result -/

/-- After the last segment the result buffer holds `outOf` of the launch memory's argument arrays. -/
theorem result_value (c : Dev nD) : (W4 m ρ c (Proc.devRef .tc main_v39) : S100000x128.Idx → EReal)
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  rw [Cert.KernelIdeal.Named.result_eq m ρ c, Cert.KernelIdeal.UpdArray.final (V3 m ρ) c]
  unfold Cert.KernelIdeal.UpdArray.G outOf
  rw [f0 m ρ c, f38 m ρ c, f9a m ρ c, f9b m ρ c, f10 m ρ c, f11 m ρ c, f12 m ρ c]

end Cert.KernelIdeal.Whole

end
-- ==== Proof.LibSilu.lean ====
/-
  `silu z = z · 1 / (1 + e^{-z})` on the extended reals, in the two spellings programs use.

  * A kernel's vector unit multiplies a vector by its logistic, entry by entry: entry `i` of `x · logistic x` is
    `x i · logistic (x i)` (`vector_form`).
  * The host expands the logistic into negate, exponential, add and divide, and writes the number one as the
    f32 literal `0x3F800000`: `z · (one / (one + exp (−z)))` is `z · logistic z` (`host_spelling`), since that
    literal is the number one and the host's negation, exponential, sum and quotient are the extended reals'.
  Both hold at every extended real, the infinities included.
-/
import Idealize.ShloMosaic.PureOps.Ideal
import Idealize.ShloMosaic.Lib.IdealHost

noncomputable section

namespace Cert.LibSilu

open Idealize.ShloMosaic

/-- The vector unit's `x · logistic x` at entry `i`. -/
theorem vector_form {s : Shape} (x : FVec Ideal s .f32) (i : s.Idx) :
    mulf x (logistic x) i = x i * Ideal.logistic (x i) := rfl

/-- The host's `z · (one / (one + exp (−z)))`, with both ones the f32 literal for one. -/
theorem host_spelling (z : Ideal .f32) :
    FloatOps.mulf z (FloatOps.hostDivf (FloatOps.ofBits .f32 0x3F800000#32)
      (FloatOps.addf (FloatOps.ofBits .f32 0x3F800000#32) (FloatOps.hostUnary .exp (FloatOps.hostNegf z))))
      = z * Ideal.logistic z := by
  show z * Ideal.div (Ideal.ofBits .f32 0x3F800000#32) (Ideal.ofBits .f32 0x3F800000#32 + Ideal.exp (-z))
    = z * Ideal.div 1 (1 + Ideal.exp (-z))
  rw [Ideal.ofBits_one_f32]

end Cert.LibSilu

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.RefLayers.lean ====
/-
  The reference's stages, read as the layers' row functions.

  * The host's silu (negate, exponential, add one, divide one by it, multiply) is `z · logistic z` at every entry.
  * The message network's first product is over the 388 lanes of four arrays joined side by side; split over the
    pieces 128 + 128 + 128 + 4 it is the sum of four products against the four bands of the weight: `Mlp.pre4`.
  * The update network's first product is over the 256 lanes of two arrays joined side by side: `Mlp.pre2`.
  * A bias vector laid as a row and spread down the rows adds, at (r, j), its entry j.
  So entry (r, q) of the reference's message array is `Mlp.head (Mlp.pre4 …)` of row r of its gathered arrays, and
  entry (p, q) of its result is the pair entry plus `Mlp.head (Mlp.pre2 …)` of row p of the pair and aggregated arrays.
-/
import proofs.«181374_j12051678233185_2_alg».proof.Proof.Gen.ReferenceIdeal.Read
import proofs.«181374_j12051678233185_2_alg».proof.Proof.Spec
import proofs.«181374_j12051678233185_2_alg».proof.Proof.LibSilu
import proofs.«181374_j12051678233185_2_alg».proof.Proof.LibRowMax
import proofs.«181374_j12051678233185_2_alg».proof.Proof.LibStack
import Idealize.ShloMosaic.Lib.Pipeline.Value
import Idealize.ShloMosaic.PureOps.Ideal.Laws

set_option maxRecDepth 16384

noncomputable section

namespace Cert.ReferenceIdeal.Layers

open Cert.ReferenceIdeal Cert.ReferenceIdeal.Gen Cert.ReferenceIdeal.Read
open Idealize.ShloMosaic Idealize.ShloMosaic.ValueIdx Cert.Mlp

/-! ## Four arrays side by side, read at a lane of each piece -/

theorem cat4_piece0 (y0 y1 y2 : S500000x128.Idx → EReal) (y3 : S500000x4.Idx → EReal) (r : Fin 500000) (k : Fin 128) (k' : Fin 388)
    (hk : k'.val = 0 + k.val) :
    concatenate S500000x388 1 [⟨S500000x128, y0⟩, ⟨S500000x128, y1⟩, ⟨S500000x128, y2⟩, ⟨S500000x4, y3⟩] concatenates_S500000x128_S500000x128_S500000x128_S500000x4_S500000x388_d1 (ix2 r k')
      = y0 (ix2 r k) :=
  concatenate_apply_piece 1 [⟨S500000x128, y0⟩, ⟨S500000x128, y1⟩, ⟨S500000x128, y2⟩, ⟨S500000x4, y3⟩] concatenates_S500000x128_S500000x128_S500000x128_S500000x4_S500000x388_d1 (ix2 r k')
    0 (by show 0 < 4; omega) S500000x128 y0 rfl rfl 0 rfl (ix2 r k)
    (fun b hb => by
      match b with
      | ⟨0, _⟩ => rfl
      | ⟨1, _⟩ => exact absurd rfl hb)
    (by show 0 + k.val = k'.val; omega)

theorem cat4_piece1 (y0 y1 y2 : S500000x128.Idx → EReal) (y3 : S500000x4.Idx → EReal) (r : Fin 500000) (k : Fin 128) (k' : Fin 388)
    (hk : k'.val = 128 + k.val) :
    concatenate S500000x388 1 [⟨S500000x128, y0⟩, ⟨S500000x128, y1⟩, ⟨S500000x128, y2⟩, ⟨S500000x4, y3⟩] concatenates_S500000x128_S500000x128_S500000x128_S500000x4_S500000x388_d1 (ix2 r k')
      = y1 (ix2 r k) :=
  concatenate_apply_piece 1 [⟨S500000x128, y0⟩, ⟨S500000x128, y1⟩, ⟨S500000x128, y2⟩, ⟨S500000x4, y3⟩] concatenates_S500000x128_S500000x128_S500000x128_S500000x4_S500000x388_d1 (ix2 r k')
    1 (by show 1 < 4; omega) S500000x128 y1 rfl rfl 128 rfl (ix2 r k)
    (fun b hb => by
      match b with
      | ⟨0, _⟩ => rfl
      | ⟨1, _⟩ => exact absurd rfl hb)
    (by show 128 + k.val = k'.val; omega)

theorem cat4_piece2 (y0 y1 y2 : S500000x128.Idx → EReal) (y3 : S500000x4.Idx → EReal) (r : Fin 500000) (k : Fin 128) (k' : Fin 388)
    (hk : k'.val = 256 + k.val) :
    concatenate S500000x388 1 [⟨S500000x128, y0⟩, ⟨S500000x128, y1⟩, ⟨S500000x128, y2⟩, ⟨S500000x4, y3⟩] concatenates_S500000x128_S500000x128_S500000x128_S500000x4_S500000x388_d1 (ix2 r k')
      = y2 (ix2 r k) :=
  concatenate_apply_piece 1 [⟨S500000x128, y0⟩, ⟨S500000x128, y1⟩, ⟨S500000x128, y2⟩, ⟨S500000x4, y3⟩] concatenates_S500000x128_S500000x128_S500000x128_S500000x4_S500000x388_d1 (ix2 r k')
    2 (by show 2 < 4; omega) S500000x128 y2 rfl rfl 256 rfl (ix2 r k)
    (fun b hb => by
      match b with
      | ⟨0, _⟩ => rfl
      | ⟨1, _⟩ => exact absurd rfl hb)
    (by show 256 + k.val = k'.val; omega)

theorem cat4_piece3 (y0 y1 y2 : S500000x128.Idx → EReal) (y3 : S500000x4.Idx → EReal) (r : Fin 500000) (k : Fin 4) (k' : Fin 388)
    (hk : k'.val = 384 + k.val) :
    concatenate S500000x388 1 [⟨S500000x128, y0⟩, ⟨S500000x128, y1⟩, ⟨S500000x128, y2⟩, ⟨S500000x4, y3⟩] concatenates_S500000x128_S500000x128_S500000x128_S500000x4_S500000x388_d1 (ix2 r k')
      = y3 (ix2 r k) :=
  concatenate_apply_piece 1 [⟨S500000x128, y0⟩, ⟨S500000x128, y1⟩, ⟨S500000x128, y2⟩, ⟨S500000x4, y3⟩] concatenates_S500000x128_S500000x128_S500000x128_S500000x4_S500000x388_d1 (ix2 r k')
    3 (by show 3 < 4; omega) S500000x4 y3 rfl rfl 384 rfl (ix2 r k)
    (fun b hb => by
      match b with
      | ⟨0, _⟩ => rfl
      | ⟨1, _⟩ => exact absurd rfl hb)
    (by show 384 + k.val = k'.val; omega)

/-! ## The message network -/

/-- The first bias, spread: entry j at (r, j). -/
theorem bias24 (x6 : (⟨S128, .f32⟩ : BufTy).Contents (Elt Ideal)) (r : Fin 500000) (j : Fin 128) :
    val_main_v24 (F := Ideal) x6 (ix2 r j) = x6 (ix1 j) := by
  unfold val_main_v24 val_main_v23
  rw [Cert.LibRowMax.broadcastInDim_1b_ab_apply _ bcast_S1x128_S500000x128_0_1 r j,
    Cert.LibRowMax.broadcastInDim_b_1b_apply x6 bcast_S128_S1x128_1 (0 : Fin 1) j]

/-- The first layer's pre-activation at (r, j). -/
theorem pre25 (x0 : (⟨S100000x128, .f32⟩ : BufTy).Contents (Elt Ideal)) (x1 x2 x3 : (⟨S500000, .i32⟩ : BufTy).Contents (Elt Ideal)) (x4 : (⟨S500000x4, .f32⟩ : BufTy).Contents (Elt Ideal)) (x5 : (⟨S388x128, .f32⟩ : BufTy).Contents (Elt Ideal)) (x6 : (⟨S128, .f32⟩ : BufTy).Contents (Elt Ideal)) (r : Fin 500000) (j : Fin 128) :
    val_main_v25 (F := Ideal) x0 x1 x2 x3 x4 x5 x6 (ix2 r j)
      = pre4 (fun k => val_main_v6 (F := Ideal) x0 x1 (ix2 r k)) (fun k => val_main_v13 (F := Ideal) x0 x2 (ix2 r k))
          (fun k => val_main_v20 (F := Ideal) x0 x3 (ix2 r k)) (fun k => x4 (ix2 r k))
          (fun k j => x5 (ix2 (⟨k.val, by have := k.isLt; omega⟩ : Fin 388) j))
          (fun k j => x5 (ix2 (⟨128 + k.val, by have := k.isLt; omega⟩ : Fin 388) j))
          (fun k j => x5 (ix2 (⟨256 + k.val, by have := k.isLt; omega⟩ : Fin 388) j))
          (fun k j => x5 (ix2 (⟨384 + k.val, by have := k.isLt; omega⟩ : Fin 388) j))
          (fun j => x6 (ix1 j)) j := by
  show val_main_v22 (F := Ideal) x0 x1 x2 x3 x4 x5 (ix2 r j) + val_main_v24 (F := Ideal) x6 (ix2 r j) = _
  rw [bias24]
  refine congrArg (· + x6 (ix1 j)) ?_
  unfold val_main_v22
  refine (Cert.LibRowMax.dotGeneral_plain_apply dot_S500000x388_S388x128_S500000x128_1_0_0_1_n_n_wf none _
    (val_main_v21 (F := Ideal) x0 x1 x2 x3 x4) x5 r j).trans ?_
  rw [sum_split4]
  unfold val_main_v21
  refine congrArg₂ (· + ·) (congrArg₂ (· + ·) (congrArg₂ (· + ·) ?_ ?_) ?_) ?_
  · exact Finset.sum_congr rfl fun k _ => congrArg (· * _) (cat4_piece0 _ _ _ _ r k _ (by show k.val = 0 + k.val; omega))
  · exact Finset.sum_congr rfl fun k _ => congrArg (· * _) (cat4_piece1 _ _ _ _ r k _ rfl)
  · exact Finset.sum_congr rfl fun k _ => congrArg (· * _) (cat4_piece2 _ _ _ _ r k _ rfl)
  · exact Finset.sum_congr rfl fun k _ => congrArg (· * _) (cat4_piece3 _ _ _ _ r k _ rfl)

/-- The host's silu of the pre-activation. -/
theorem silu26 (x0 : (⟨S100000x128, .f32⟩ : BufTy).Contents (Elt Ideal)) (x1 x2 x3 : (⟨S500000, .i32⟩ : BufTy).Contents (Elt Ideal)) (x4 : (⟨S500000x4, .f32⟩ : BufTy).Contents (Elt Ideal)) (x5 : (⟨S388x128, .f32⟩ : BufTy).Contents (Elt Ideal)) (x6 : (⟨S128, .f32⟩ : BufTy).Contents (Elt Ideal)) (i : S500000x128.Idx) :
    val_main_v26 (F := Ideal) x0 x1 x2 x3 x4 x5 x6 i = silu (val_main_v25 (F := Ideal) x0 x1 x2 x3 x4 x5 x6 i) := by
  have h4 : val_main_call0_v4 (F := Ideal) i = (FloatOps.ofBits .f32 0x3F800000#32 : Ideal .f32) := by
    rw [val_main_call0_v4_apply]; rfl
  have h2 : val_main_call0_v2 (F := Ideal) i = (FloatOps.ofBits .f32 0x3F800000#32 : Ideal .f32) := by
    rw [val_main_call0_v2_apply]; rfl
  show FloatOps.mulf (F := Ideal) (φ := .f32) (val_main_v25 (F := Ideal) x0 x1 x2 x3 x4 x5 x6 i)
      (FloatOps.hostDivf (F := Ideal) (φ := .f32) (val_main_call0_v4 (F := Ideal) i)
        (FloatOps.addf (F := Ideal) (φ := .f32) (val_main_call0_v2 (F := Ideal) i)
          (FloatOps.hostUnary (F := Ideal) (φ := .f32) .exp (FloatOps.hostNegf (F := Ideal) (φ := .f32) (val_main_v25 (F := Ideal) x0 x1 x2 x3 x4 x5 x6 i))))) = _
  rw [h4, h2]
  exact Cert.LibSilu.host_spelling _

/-- The second bias, spread: entry q at (r, q). -/
theorem bias29 (x8 : (⟨S128, .f32⟩ : BufTy).Contents (Elt Ideal)) (r : Fin 500000) (q : Fin 128) :
    val_main_v29 (F := Ideal) x8 (ix2 r q) = x8 (ix1 q) := by
  unfold val_main_v29 val_main_v28
  rw [Cert.LibRowMax.broadcastInDim_1b_ab_apply _ bcast_S1x128_S500000x128_0_1 r q,
    Cert.LibRowMax.broadcastInDim_b_1b_apply x8 bcast_S128_S1x128_1 (0 : Fin 1) q]

/-- The reference's message array at (r, q). -/
theorem msg30 (x0 : (⟨S100000x128, .f32⟩ : BufTy).Contents (Elt Ideal)) (x1 x2 x3 : (⟨S500000, .i32⟩ : BufTy).Contents (Elt Ideal)) (x4 : (⟨S500000x4, .f32⟩ : BufTy).Contents (Elt Ideal)) (x5 : (⟨S388x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (r : Fin 500000) (q : Fin 128) :
    val_main_v30 (F := Ideal) x0 x1 x2 x3 x4 x5 x6 x7 x8 (ix2 r q)
      = head (pre4 (fun k => val_main_v6 (F := Ideal) x0 x1 (ix2 r k)) (fun k => val_main_v13 (F := Ideal) x0 x2 (ix2 r k))
          (fun k => val_main_v20 (F := Ideal) x0 x3 (ix2 r k)) (fun k => x4 (ix2 r k))
          (fun k j => x5 (ix2 (⟨k.val, by have := k.isLt; omega⟩ : Fin 388) j))
          (fun k j => x5 (ix2 (⟨128 + k.val, by have := k.isLt; omega⟩ : Fin 388) j))
          (fun k j => x5 (ix2 (⟨256 + k.val, by have := k.isLt; omega⟩ : Fin 388) j))
          (fun k j => x5 (ix2 (⟨384 + k.val, by have := k.isLt; omega⟩ : Fin 388) j))
          (fun j => x6 (ix1 j))) (fun k j => x7 (ix2 k j)) (fun j => x8 (ix1 j)) q := by
  show val_main_v27 (F := Ideal) x0 x1 x2 x3 x4 x5 x6 x7 (ix2 r q) + val_main_v29 (F := Ideal) x8 (ix2 r q) = _
  rw [bias29]
  refine congrArg (· + x8 (ix1 q)) ?_
  unfold val_main_v27
  refine (Cert.LibRowMax.dotGeneral_plain_apply dot_S500000x128_S128x128_S500000x128_1_0_0_1_n_n_wf none _
    (val_main_v26 (F := Ideal) x0 x1 x2 x3 x4 x5 x6) x7 r q).trans ?_
  refine Finset.sum_congr rfl fun j _ => congrArg (· * x7 (ix2 j q)) ?_
  rw [silu26, pre25]

/-! ## The update network -/

theorem bias37 (x10 : (⟨S128, .f32⟩ : BufTy).Contents (Elt Ideal)) (p : Fin 100000) (j : Fin 128) :
    val_main_v37 (F := Ideal) x10 (ix2 p j) = x10 (ix1 j) := by
  unfold val_main_v37 val_main_v36
  rw [Cert.LibRowMax.broadcastInDim_1b_ab_apply _ bcast_S1x128_S100000x128_0_1 p j,
    Cert.LibRowMax.broadcastInDim_b_1b_apply x10 bcast_S128_S1x128_1 (0 : Fin 1) j]

theorem bias42 (x12 : (⟨S128, .f32⟩ : BufTy).Contents (Elt Ideal)) (p : Fin 100000) (q : Fin 128) :
    val_main_v42 (F := Ideal) x12 (ix2 p q) = x12 (ix1 q) := by
  unfold val_main_v42 val_main_v41
  rw [Cert.LibRowMax.broadcastInDim_1b_ab_apply _ bcast_S1x128_S100000x128_0_1 p q,
    Cert.LibRowMax.broadcastInDim_b_1b_apply x12 bcast_S128_S1x128_1 (0 : Fin 1) q]

/-- The update network's pre-activation at (p, j). -/
theorem pre38 (x0 : (⟨S100000x128, .f32⟩ : BufTy).Contents (Elt Ideal)) (x1 x2 x3 : (⟨S500000, .i32⟩ : BufTy).Contents (Elt Ideal)) (x4 : (⟨S500000x4, .f32⟩ : BufTy).Contents (Elt Ideal)) (x5 : (⟨S388x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) (p : Fin 100000) (j : Fin 128) :
    val_main_v38 (F := Ideal) x0 x1 x2 x3 x4 x5 x6 x7 x8 x9 x10 (ix2 p j)
      = pre2 (fun k => x0 (ix2 p k)) (fun k => val_main_v33 (F := Ideal) x0 x1 x2 x3 x4 x5 x6 x7 x8 (ix2 p k))
          (fun k j => x9 (ix2 (⟨k.val, by have := k.isLt; omega⟩ : Fin 256) j))
          (fun k j => x9 (ix2 (⟨128 + k.val, by have := k.isLt; omega⟩ : Fin 256) j))
          (fun j => x10 (ix1 j)) j := by
  show val_main_v35 (F := Ideal) x0 x1 x2 x3 x4 x5 x6 x7 x8 x9 (ix2 p j) + val_main_v37 (F := Ideal) x10 (ix2 p j) = _
  rw [bias37]
  refine congrArg (· + x10 (ix1 j)) ?_
  unfold val_main_v35
  refine (Cert.LibRowMax.dotGeneral_plain_apply dot_S100000x256_S256x128_S100000x128_1_0_0_1_n_n_wf none _
    (val_main_v34 (F := Ideal) x0 x1 x2 x3 x4 x5 x6 x7 x8) x9 p j).trans ?_
  rw [sum_split2]
  unfold val_main_v34
  refine congrArg₂ (· + ·) ?_ ?_
  · exact Finset.sum_congr rfl fun k _ => congrArg (· * _)
      (Cert.LibStack.beside_left x0 (val_main_v33 (F := Ideal) x0 x1 x2 x3 x4 x5 x6 x7 x8) concatenates_S100000x128_S100000x128_S100000x256_d1 p k _ rfl)
  · exact Finset.sum_congr rfl fun k _ => congrArg (· * _)
      (Cert.LibStack.beside_right x0 (val_main_v33 (F := Ideal) x0 x1 x2 x3 x4 x5 x6 x7 x8) concatenates_S100000x128_S100000x128_S100000x256_d1 p k _ (by show 128 + k.val = k.val + 128; omega))

theorem silu39 (x0 : (⟨S100000x128, .f32⟩ : BufTy).Contents (Elt Ideal)) (x1 x2 x3 : (⟨S500000, .i32⟩ : BufTy).Contents (Elt Ideal)) (x4 : (⟨S500000x4, .f32⟩ : BufTy).Contents (Elt Ideal)) (x5 : (⟨S388x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) (i : S100000x128.Idx) :
    val_main_v39 (F := Ideal) x0 x1 x2 x3 x4 x5 x6 x7 x8 x9 x10 i = silu (val_main_v38 (F := Ideal) x0 x1 x2 x3 x4 x5 x6 x7 x8 x9 x10 i) := by
  have h4 : val_main_call1_v4 (F := Ideal) i = (FloatOps.ofBits .f32 0x3F800000#32 : Ideal .f32) := by
    rw [val_main_call1_v4_apply]; rfl
  have h2 : val_main_call1_v2 (F := Ideal) i = (FloatOps.ofBits .f32 0x3F800000#32 : Ideal .f32) := by
    rw [val_main_call1_v2_apply]; rfl
  show FloatOps.mulf (F := Ideal) (φ := .f32) (val_main_v38 (F := Ideal) x0 x1 x2 x3 x4 x5 x6 x7 x8 x9 x10 i)
      (FloatOps.hostDivf (F := Ideal) (φ := .f32) (val_main_call1_v4 (F := Ideal) i)
        (FloatOps.addf (F := Ideal) (φ := .f32) (val_main_call1_v2 (F := Ideal) i)
          (FloatOps.hostUnary (F := Ideal) (φ := .f32) .exp (FloatOps.hostNegf (F := Ideal) (φ := .f32) (val_main_v38 (F := Ideal) x0 x1 x2 x3 x4 x5 x6 x7 x8 x9 x10 i))))) = _
  rw [h4, h2]
  exact Cert.LibSilu.host_spelling _

/-- The reference's result at (p, q). -/
theorem out44 (x0 : (⟨S100000x128, .f32⟩ : BufTy).Contents (Elt Ideal)) (x1 x2 x3 : (⟨S500000, .i32⟩ : BufTy).Contents (Elt Ideal)) (x4 : (⟨S500000x4, .f32⟩ : BufTy).Contents (Elt Ideal)) (x5 : (⟨S388x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (p : Fin 100000) (q : Fin 128) :
    val_main_v44 (F := Ideal) x0 x1 x2 x3 x4 x5 x6 x7 x8 x9 x10 x11 x12 (ix2 p q)
      = x0 (ix2 p q) + head (pre2 (fun k => x0 (ix2 p k)) (fun k => val_main_v33 (F := Ideal) x0 x1 x2 x3 x4 x5 x6 x7 x8 (ix2 p k))
          (fun k j => x9 (ix2 (⟨k.val, by have := k.isLt; omega⟩ : Fin 256) j))
          (fun k j => x9 (ix2 (⟨128 + k.val, by have := k.isLt; omega⟩ : Fin 256) j))
          (fun j => x10 (ix1 j))) (fun k j => x11 (ix2 k j)) (fun j => x12 (ix1 j)) q := by
  show x0 (ix2 p q) + (val_main_v40 (F := Ideal) x0 x1 x2 x3 x4 x5 x6 x7 x8 x9 x10 x11 (ix2 p q) + val_main_v42 (F := Ideal) x12 (ix2 p q)) = _
  rw [bias42]
  refine congrArg (x0 (ix2 p q) + ·) (congrArg (· + x12 (ix1 q)) ?_)
  unfold val_main_v40
  refine (Cert.LibRowMax.dotGeneral_plain_apply dot_S100000x128_S128x128_S100000x128_1_0_0_1_n_n_wf none _
    (val_main_v39 (F := Ideal) x0 x1 x2 x3 x4 x5 x6 x7 x8 x9 x10) x11 p q).trans ?_
  refine Finset.sum_congr rfl fun j _ => congrArg (· * x11 (ix2 j q)) ?_
  rw [silu39, pre38]

end Cert.ReferenceIdeal.Layers

end
-- ==== Proof.Bridge.lean ====
/-
  The idealized kernel's result term is the reference's last stage, as functions of the same thirteen arrays.

  * The gathered rows agree outright: rounding the pair array first changes nothing on the extended reals, and both
    programs wrap and lay out the index vectors by the same operations.
  * A band of a weight cut out by a slice, read at (k, j), is the weight at (offset + k, j).
  * Hence the two message arrays agree entry by entry (the kernel's four partial products against the four bands are
    the reference's one product over the joined lanes, split), so the two scatter-adds of them agree, and hence the
    two results agree entry by entry (the kernel's two partial products are the reference's one, split).
-/
import proofs.«181374_j12051678233185_2_alg».proof.Proof.KernelValue
import proofs.«181374_j12051678233185_2_alg».proof.Proof.RefLayers

set_option maxRecDepth 16384

noncomputable section

namespace Cert.Bridge

open Idealize.ShloMosaic Idealize.ShloMosaic.ValueIdx Cert.Mlp
open Cert.KernelIdeal.Gen Cert.KernelIdeal.Whole

/-! ## Bands of the weights -/

theorem band5_0 (a : FVec Ideal Cert.KernelIdeal.S388x128 .f32) (k : Fin 128) (j : Fin 128) :
    extractStridedSlice Cert.KernelIdeal.S128x128 ![0, 0] a slices_S388x128_S128x128_0_0 (ix2 k j)
      = a (ix2 (⟨k.val, by have := k.isLt; omega⟩ : Fin 388) j) :=
  extractStridedSlice_apply ![0, 0] a slices_S388x128_S128x128_0_0 (ix2 k j) (ix2 (⟨k.val, by have := k.isLt; omega⟩ : Fin 388) j) fun ax => by
    match ax with
    | ⟨0, _⟩ => show k.val = 0 + k.val; omega
    | ⟨1, _⟩ => show j.val = 0 + j.val; omega

theorem band5_1 (a : FVec Ideal Cert.KernelIdeal.S388x128 .f32) (k : Fin 128) (j : Fin 128) :
    extractStridedSlice Cert.KernelIdeal.S128x128 ![128, 0] a slices_S388x128_S128x128_128_0 (ix2 k j)
      = a (ix2 (⟨128 + k.val, by have := k.isLt; omega⟩ : Fin 388) j) :=
  extractStridedSlice_apply ![128, 0] a slices_S388x128_S128x128_128_0 (ix2 k j) (ix2 (⟨128 + k.val, by have := k.isLt; omega⟩ : Fin 388) j) fun ax => by
    match ax with
    | ⟨0, _⟩ => rfl
    | ⟨1, _⟩ => show j.val = 0 + j.val; omega

theorem band5_2 (a : FVec Ideal Cert.KernelIdeal.S388x128 .f32) (k : Fin 128) (j : Fin 128) :
    extractStridedSlice Cert.KernelIdeal.S128x128 ![256, 0] a slices_S388x128_S128x128_256_0 (ix2 k j)
      = a (ix2 (⟨256 + k.val, by have := k.isLt; omega⟩ : Fin 388) j) :=
  extractStridedSlice_apply ![256, 0] a slices_S388x128_S128x128_256_0 (ix2 k j) (ix2 (⟨256 + k.val, by have := k.isLt; omega⟩ : Fin 388) j) fun ax => by
    match ax with
    | ⟨0, _⟩ => rfl
    | ⟨1, _⟩ => show j.val = 0 + j.val; omega

theorem band5_3 (a : FVec Ideal Cert.KernelIdeal.S388x128 .f32) (k : Fin 4) (j : Fin 128) :
    extractStridedSlice Cert.KernelIdeal.S4x128 ![384, 0] a slices_S388x128_S4x128_384_0 (ix2 k j)
      = a (ix2 (⟨384 + k.val, by have := k.isLt; omega⟩ : Fin 388) j) :=
  extractStridedSlice_apply ![384, 0] a slices_S388x128_S4x128_384_0 (ix2 k j) (ix2 (⟨384 + k.val, by have := k.isLt; omega⟩ : Fin 388) j) fun ax => by
    match ax with
    | ⟨0, _⟩ => rfl
    | ⟨1, _⟩ => show j.val = 0 + j.val; omega

theorem band9_0 (a : FVec Ideal Cert.KernelIdeal.S256x128 .f32) (k : Fin 128) (j : Fin 128) :
    extractStridedSlice Cert.KernelIdeal.S128x128 ![0, 0] a slices_S256x128_S128x128_0_0 (ix2 k j)
      = a (ix2 (⟨k.val, by have := k.isLt; omega⟩ : Fin 256) j) :=
  extractStridedSlice_apply ![0, 0] a slices_S256x128_S128x128_0_0 (ix2 k j) (ix2 (⟨k.val, by have := k.isLt; omega⟩ : Fin 256) j) fun ax => by
    match ax with
    | ⟨0, _⟩ => show k.val = 0 + k.val; omega
    | ⟨1, _⟩ => show j.val = 0 + j.val; omega

theorem band9_1 (a : FVec Ideal Cert.KernelIdeal.S256x128 .f32) (k : Fin 128) (j : Fin 128) :
    extractStridedSlice Cert.KernelIdeal.S128x128 ![128, 0] a slices_S256x128_S128x128_128_0 (ix2 k j)
      = a (ix2 (⟨128 + k.val, by have := k.isLt; omega⟩ : Fin 256) j) :=
  extractStridedSlice_apply ![128, 0] a slices_S256x128_S128x128_128_0 (ix2 k j) (ix2 (⟨128 + k.val, by have := k.isLt; omega⟩ : Fin 256) j) fun ax => by
    match ax with
    | ⟨0, _⟩ => rfl
    | ⟨1, _⟩ => show j.val = 0 + j.val; omega

/-! ## The gathered rows -/

theorem rows1 (a0 : FVec Ideal Cert.KernelIdeal.S100000x128 .f32) (a : IVec Cert.KernelIdeal.S500000 32) :
    (rowsOf a0 a : Cert.KernelIdeal.S500000x128.Idx → EReal) = Cert.ReferenceIdeal.Read.val_main_v6 (F := Ideal) a0 a := rfl
theorem rows2 (a0 : FVec Ideal Cert.KernelIdeal.S100000x128 .f32) (a : IVec Cert.KernelIdeal.S500000 32) :
    (rowsOf a0 a : Cert.KernelIdeal.S500000x128.Idx → EReal) = Cert.ReferenceIdeal.Read.val_main_v13 (F := Ideal) a0 a := rfl
theorem rows3 (a0 : FVec Ideal Cert.KernelIdeal.S100000x128 .f32) (a : IVec Cert.KernelIdeal.S500000 32) :
    (rowsOf a0 a : Cert.KernelIdeal.S500000x128.Idx → EReal) = Cert.ReferenceIdeal.Read.val_main_v20 (F := Ideal) a0 a := rfl

/-! ## The message arrays -/

theorem msg_eq (a0 : FVec Ideal Cert.KernelIdeal.S100000x128 .f32) (a1 a2 a3 : IVec Cert.KernelIdeal.S500000 32) (a4 : FVec Ideal Cert.KernelIdeal.S500000x4 .f32)
    (a5 : FVec Ideal Cert.KernelIdeal.S388x128 .f32) (a6 : FVec Ideal Cert.KernelIdeal.S128 .f32) (a7 : FVec Ideal Cert.KernelIdeal.S128x128 .f32) (a8 : FVec Ideal Cert.KernelIdeal.S128 .f32) :
    msgOf a0 a1 a2 a3 a4 a5 a6 a7 a8 = Cert.ReferenceIdeal.Read.val_main_v30 (F := Ideal) a0 a1 a2 a3 a4 a5 a6 a7 a8 := by
  funext i
  obtain ⟨r, q, rfl⟩ : ∃ (r : Fin 500000) (q : Fin 128), i = ix2 r q := ⟨i 0, i 1, eq_ix2 i⟩
  rw [Cert.ReferenceIdeal.Layers.msg30]
  show head (pre4 (fun k => rowsOf a0 a1 (ix2 r k)) (fun k => rowsOf a0 a2 (ix2 r k)) (fun k => rowsOf a0 a3 (ix2 r k))
        (fun k => a4 (ix2 r k))
        (fun k j => extractStridedSlice Cert.KernelIdeal.S128x128 ![0, 0] a5 slices_S388x128_S128x128_0_0 (ix2 k j))
        (fun k j => extractStridedSlice Cert.KernelIdeal.S128x128 ![128, 0] a5 slices_S388x128_S128x128_128_0 (ix2 k j))
        (fun k j => extractStridedSlice Cert.KernelIdeal.S128x128 ![256, 0] a5 slices_S388x128_S128x128_256_0 (ix2 k j))
        (fun k j => extractStridedSlice Cert.KernelIdeal.S4x128 ![384, 0] a5 slices_S388x128_S4x128_384_0 (ix2 k j))
        (fun j => a6 (ix1 j))) (fun k j => a7 (ix2 k j)) (fun j => a8 (ix1 j)) q = _
  rw [funext fun k => funext (band5_0 a5 k), funext fun k => funext (band5_1 a5 k), funext fun k => funext (band5_2 a5 k),
    funext fun k => funext (band5_3 a5 k), rows1, rows2, rows3]

/-! ## The aggregated arrays -/

theorem agg_eq (a0 : FVec Ideal Cert.KernelIdeal.S100000x128 .f32) (a1 a2 a3 : IVec Cert.KernelIdeal.S500000 32) (a4 : FVec Ideal Cert.KernelIdeal.S500000x4 .f32)
    (a5 : FVec Ideal Cert.KernelIdeal.S388x128 .f32) (a6 : FVec Ideal Cert.KernelIdeal.S128 .f32) (a7 : FVec Ideal Cert.KernelIdeal.S128x128 .f32) (a8 : FVec Ideal Cert.KernelIdeal.S128 .f32) :
    aggOf a3 (msgOf a0 a1 a2 a3 a4 a5 a6 a7 a8) = Cert.ReferenceIdeal.Read.val_main_v33 (F := Ideal) a0 a1 a2 a3 a4 a5 a6 a7 a8 := by
  rw [msg_eq]
  rfl

/-! ## The results -/

theorem out_eq (a0 : FVec Ideal Cert.KernelIdeal.S100000x128 .f32) (a1 a2 a3 : IVec Cert.KernelIdeal.S500000 32) (a4 : FVec Ideal Cert.KernelIdeal.S500000x4 .f32)
    (a5 : FVec Ideal Cert.KernelIdeal.S388x128 .f32) (a6 : FVec Ideal Cert.KernelIdeal.S128 .f32) (a7 : FVec Ideal Cert.KernelIdeal.S128x128 .f32) (a8 : FVec Ideal Cert.KernelIdeal.S128 .f32)
    (a9 : FVec Ideal Cert.KernelIdeal.S256x128 .f32) (a10 : FVec Ideal Cert.KernelIdeal.S128 .f32) (a11 : FVec Ideal Cert.KernelIdeal.S128x128 .f32) (a12 : FVec Ideal Cert.KernelIdeal.S128 .f32) :
    outOf a0 a1 a2 a3 a4 a5 a6 a7 a8 a9 a10 a11 a12 = Cert.ReferenceIdeal.Read.val_main_v44 (F := Ideal) a0 a1 a2 a3 a4 a5 a6 a7 a8 a9 a10 a11 a12 := by
  funext i
  obtain ⟨p, q, rfl⟩ : ∃ (p : Fin 100000) (q : Fin 128), i = ix2 p q := ⟨i 0, i 1, eq_ix2 i⟩
  rw [Cert.ReferenceIdeal.Layers.out44]
  show a0 (ix2 p q) + head (pre2 (fun k => a0 (ix2 p k)) (fun k => aggOf a3 (msgOf a0 a1 a2 a3 a4 a5 a6 a7 a8) (ix2 p k))
        (fun k j => extractStridedSlice Cert.KernelIdeal.S128x128 ![0, 0] a9 slices_S256x128_S128x128_0_0 (ix2 k j))
        (fun k j => extractStridedSlice Cert.KernelIdeal.S128x128 ![128, 0] a9 slices_S256x128_S128x128_128_0 (ix2 k j))
        (fun j => a10 (ix1 j))) (fun k j => a11 (ix2 k j)) (fun j => a12 (ix1 j)) q = _
  rw [funext fun k => funext (band9_0 a9 k), funext fun k => funext (band9_1 a9 k), agg_eq]

end Cert.Bridge

end
-- ==== Proof.lean ====
/-
  Local 2-FWL pair update: a tiled two-kernel implementation against its jnp reference, over the extended reals.

  Both programs gather three rows of the pair array per triplet, run a two-layer perceptron with silu on the three rows
  and a geometry row, scatter-add the messages onto the pairs, and run a second two-layer perceptron on each pair row
  and its aggregated row, adding the pair row back. The kernel runs the two perceptrons as tiled kernels whose first
  layers are sums of partial matrix products against bands of the weights, where the reference forms one product over
  the joined lanes; its roundings to a shorter float format are the identity on the extended reals. A finite sum
  regrouped is the same sum, so the two results agree at every entry; no finiteness of the inputs is needed for that.

  * the three frames: the generated frame certificates of the two kernel programs, and the reference's generated run
    with its result forgotten;
  * the idealization rewrote no operation, so there is nothing to preserve;
  * the algebraic claim: the kernel's run names its result (Proof/KernelRun.lean), which is one term of the arguments
    (Proof/KernelValue.lean) equal to the reference's last stage (Proof/Bridge.lean); the reference's run ends at
    that stage.
-/
import proofs.«181374_j12051678233185_2_alg».proof.Defs
import proofs.«181374_j12051678233185_2_alg».proof.Proof.Gen.Kernel
import proofs.«181374_j12051678233185_2_alg».proof.Proof.Gen.Kernel.Skeleton
import proofs.«181374_j12051678233185_2_alg».proof.Proof.Gen.Kernel.Launch
import proofs.«181374_j12051678233185_2_alg».proof.Proof.Gen.Kernel.Points
import proofs.«181374_j12051678233185_2_alg».proof.Proof.Gen.Kernel.Frame
import proofs.«181374_j12051678233185_2_alg».proof.Proof.Gen.KernelIdeal
import proofs.«181374_j12051678233185_2_alg».proof.Proof.Gen.KernelIdeal.Skeleton
import proofs.«181374_j12051678233185_2_alg».proof.Proof.Gen.KernelIdeal.Launch
import proofs.«181374_j12051678233185_2_alg».proof.Proof.Gen.KernelIdeal.Points
import proofs.«181374_j12051678233185_2_alg».proof.Proof.Gen.KernelIdeal.Frame
import proofs.«181374_j12051678233185_2_alg».proof.Proof.Gen.ReferenceIdeal
import proofs.«181374_j12051678233185_2_alg».proof.Proof.Gen.ReferenceIdeal.Run
import proofs.«181374_j12051678233185_2_alg».proof.Proof.Gen.ReferenceIdeal.Read
import proofs.«181374_j12051678233185_2_alg».proof.Proof.Gen.Pre_finite_inputs
import proofs.«181374_j12051678233185_2_alg».proof.Proof.KernelRun
import proofs.«181374_j12051678233185_2_alg».proof.Proof.KernelValue
import proofs.«181374_j12051678233185_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end, and their results are one function of those
    arguments. -/
theorem algebraic : Cert.algebraic_KernelIdeal_ReferenceIdeal := by
  intro m ρ m' ρ' _ hagree
  refine ⟨fun c => Cert.KernelIdeal.Whole.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Whole.result_value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v44_eq]
    obtain ⟨h0, h1, h2, h3, h4, h5, h6, h7, h8, h9, h10, h11, h12⟩ := hagree c
    rw [h0, h1, h2, h3, h4, h5, h6, h7, h8, h9, h10, h11, h12]
    exact (Cert.Bridge.out_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
